-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8x256 : Shape := ⟨3, ![256, 8, 256]⟩
abbrev S8x256 : Shape := ⟨2, ![8, 256]⟩
abbrev S256x512 : Shape := ⟨2, ![256, 512]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S256x8x256 : S_.BroadcastsInDim S256x8x256 (![] : Fin 0 → Fin S256x8x256.rank)
  reducesTo_S256x8x256_S_d0_1_2 : S256x8x256.ReducesTo [0, 1, 2] S_
  h_S_ : 0 < S_.numel
  bcast_S_S8x256 : S_.BroadcastsInDim S8x256 (![] : Fin 0 → Fin S8x256.rank)
  reducesTo_S8x256_S_d0_1 : S8x256.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x256 .f32) (main_arg5 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S1x256 .f32 := Host.absf main_arg4
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S256x8x256 .f32) (main_arg1 : FVec F S8x256 .f32) (main_arg2 : FVec F S256x512 .f32) (main_arg3 : FVec F S256 .f32) (main_arg4 : FVec F S1x256 .f32) (main_arg5 : FVec F S1 .f32) : IVec S_ 1 :=
  let main_v0 : FVec F S256x8x256 .f32 := Host.absf main_arg0
  let main_cst : FVec F S_ .f32 := constant S_ .f32 0x7F800000#32
  let main_v1 : FVec F S256x8x256 .f32 := broadcastInDim S256x8x256 ![] bcast_S_S256x8x256 main_cst
  let main_v2 : IVec S256x8x256 1 := cmpf .olt main_v0 main_v1
  let main_c : IVec S_ 1 := constantI S_ 1 1#1
  let main_v3 : IVec S_ 1 := (fun x v => Host.reduce IntOp.andi x v reducesTo_S256x8x256_S_d0_1_2 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S256x8x256 : Shape := ⟨3, ![256, 8, 256]⟩
abbrev S8x256 : Shape := ⟨2, ![8, 256]⟩
abbrev S256x512 : Shape := ⟨2, ![256, 512]⟩
abbrev S256 : Shape := ⟨1, ![256]⟩
abbrev S1x256 : Shape := ⟨2, ![1, 256]⟩
abbrev S1 : Shape := ⟨1, ![1]⟩
abbrev S8x256x256 : Shape := ⟨3, ![8, 256, 256]⟩
abbrev S256x256 : Shape := ⟨2, ![256, 256]⟩
abbrev S1x1 : Shape := ⟨2, ![1, 1]⟩
abbrev S1x32x256 : Shape := ⟨3, ![1, 32, 256]⟩
abbrev S1x256x256 : Shape := ⟨3, ![1, 256, 256]⟩
abbrev S32x256 : Shape := ⟨2, ![32, 256]⟩
abbrev S32x1x256 : Shape := ⟨3, ![32, 1, 256]⟩
abbrev S32x256x256 : Shape := ⟨3, ![32, 256, 256]⟩
abbrev S1x1x256 : Shape := ⟨3, ![1, 1, 256]⟩
abbrev S_ : Shape := ⟨0, ![]⟩
abbrev S8x1x256 : Shape := ⟨3, ![8, 1, 256]⟩

abbrev nBuf : Space → Nat
  | .hbm => 28
  | .vmem => 11
  | .smem => 0
  | _ => 0

abbrev bufTy : (tb : Table) → Fin (tcTables nBuf tb) → BufTy
  | .hbm, ⟨0, _⟩ => ⟨S256x8x256, .f32⟩
  | .hbm, ⟨1, _⟩ => ⟨S8x256, .f32⟩
  | .hbm, ⟨2, _⟩ => ⟨S256x512, .f32⟩
  | .hbm, ⟨3, _⟩ => ⟨S256, .f32⟩
  | .hbm, ⟨4, _⟩ => ⟨S1x256, .f32⟩
  | .hbm, ⟨5, _⟩ => ⟨S1, .f32⟩
  | .hbm, ⟨6, _⟩ => ⟨S8x256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S1x256, .f32⟩
  | .hbm, ⟨12, _⟩ => ⟨S1x1, .f32⟩
  | .hbm, ⟨13, _⟩ => ⟨S8x256x256, .f32⟩
  | .hbm, ⟨14, _⟩ => ⟨S_, .f32⟩
  | .hbm, ⟨15, _⟩ => ⟨S8x256, .f32⟩
  | .hbm, ⟨16, _⟩ => ⟨S_, .f32⟩
  | .hbm, ⟨17, _⟩ => ⟨S8x256, .f32⟩
  | .hbm, ⟨18, _⟩ => ⟨S8x256, .f32⟩
  | .hbm, ⟨19, _⟩ => ⟨S8x1x256, .f32⟩
  | .hbm, ⟨20, _⟩ => ⟨S8x256x256, .f32⟩
  | .hbm, ⟨21, _⟩ => ⟨S8x256x256, .f32⟩
  | .hbm, ⟨22, _⟩ => ⟨S8x256x256, .f32⟩
  | .hbm, ⟨23, _⟩ => ⟨S_, .f32⟩
  | .hbm, ⟨24, _⟩ => ⟨S8x256, .f32⟩
  | .hbm, ⟨25, _⟩ => ⟨S8x1x256, .f32⟩
  | .hbm, ⟨26, _⟩ => ⟨S8x256x256, .f32⟩
  | .hbm, ⟨27, _⟩ => ⟨S8x256x256, .f32⟩
  | .local _ .vmem, ⟨0, _⟩ => ⟨S1x32x256, .f32⟩
  | .local _ .vmem, ⟨1, _⟩ => ⟨S1x32x256, .f32⟩
  | .local _ .vmem, ⟨2, _⟩ => ⟨S1x256x256, .f32⟩
  | .local _ .vmem, ⟨3, _⟩ => ⟨S1x256x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S1x256, .f32⟩
  | .local _ .vmem, ⟨8, _⟩ => ⟨S1x1, .f32⟩
  | .local _ .vmem, ⟨9, _⟩ => ⟨S1x32x256, .f32⟩
  | .local _ .vmem, ⟨10, _⟩ => ⟨S1x32x256, .f32⟩
  | _, _ => ⟨S256x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  transposes_S256x8x256_S8x256x256_1_0_2 : S256x8x256.Transposes [1, 0, 2] S8x256x256
  slices_S256x512_S256x256_0_0 : S256x512.Slices ![0, 0] S256x256
  slices_S256x512_S256x256_0_256 : S256x512.Slices ![0, 256] S256x256
  transposes_S256x256_S256x256_1_0 : S256x256.Transposes [1, 0] S256x256
  shapeCasts_S256_S1x256 : S256.ShapeCasts S1x256
  shapeCasts_S1_S1x1 : S1.ShapeCasts S1x1
  inb_S1x32x256_S1x32x256_0_0_0 : ∀ a, (![0, 0, 0] : Fin 3 → Nat) a + S1x32x256.size a ≤ S1x32x256.size a
  h_S1x32x256 : 0 < S1x32x256.numel
  shapeCasts_S1x32x256_S32x256 : S1x32x256.ShapeCasts S32x256
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S32x256_S32x1x256 : S32x256.ShapeCasts S32x1x256
  shapeCasts_S256x256_S1x256x256 : S256x256.ShapeCasts S1x256x256
  broadcasts_S32x1x256_S32x256x256 : S32x1x256.Broadcasts S32x256x256
  broadcasts_S1x256x256_S32x256x256 : S1x256x256.Broadcasts S32x256x256
  shapeCasts_S1x256_S1x1x256 : S1x256.ShapeCasts S1x1x256
  broadcasts_S1x1x256_S32x256x256 : S1x1x256.Broadcasts S32x256x256
  reduces_S32x256x256_S32x256 : S32x256x256.Reduces [2] S32x256
  shapeCasts_S32x256_S1x32x256 : S32x256.ShapeCasts S1x32x256
  reducesTo_S8x256x256_S8x256_d1 : S8x256x256.ReducesTo [1] S8x256
  h_S_ : 0 < S_.numel
  bcast_S_S8x256 : S_.BroadcastsInDim S8x256 (![] : Fin 0 → Fin S8x256.rank)
  bcast_S8x256_S8x1x256_0_2 : S8x256.BroadcastsInDim S8x1x256 (![0, 2] : Fin 2 → Fin S8x1x256.rank)
  bcast_S8x1x256_S8x256x256_0_1_2 : S8x1x256.BroadcastsInDim S8x256x256 (![0, 1, 2] : Fin 3 → Fin S8x256x256.rank)
  dot_S32x256_S256x256_S32x256_1_0_0_1_n_n_wf : DotDims.WF S32x256 S256x256 S32x256 [1] [0] [0] [1] [] []
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x256.size a ≤ S8x256x256.size a
  hwx0_0 : ∀ i : grid0.Coords, EltTy.bits .f32 = 32 ∨ (Rect.block (s := S8x256x256) S1x32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S8x256x256.size a
  hwx0_1 : ∀ i : grid0.Coords, EltTy.bits .f32 = 32 ∨ (Rect.block (s := S8x256x256) S1x256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32x256.size a ≤ S8x256x256.size a
  hwx0_7 : ∀ i : grid0.Coords, EltTy.bits .f32 = 32 ∨ (Rect.block (s := S8x256x256) S1x32x256.size (cc0_transform_7 i) (hinb0_7 i)).WholeWords (EltTy.packing .f32)

variable [Facts₀]

def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_v0) S1x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x32x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S256x8x256 : Shape := ⟨3, ![256, 8, 256]⟩
abbrev S8x256 : Shape := ⟨2, ![8, 256]⟩
abbrev S256x512 : Shape := ⟨2, ![256, 512]⟩
abbrev S256 : Shape := ⟨1, ![256]⟩
abbrev S1x256 : Shape := ⟨2, ![1, 256]⟩
abbrev S1 : Shape := ⟨1, ![1]⟩
abbrev S8x256x256 : Shape := ⟨3, ![8, 256, 256]⟩
abbrev S256x256 : Shape := ⟨2, ![256, 256]⟩
abbrev S8x256x1x256 : Shape := ⟨4, ![8, 256, 1, 256]⟩
abbrev S8x1x256x256 : Shape := ⟨4, ![8, 1, 256, 256]⟩
abbrev S8x256x256x256 : Shape := ⟨4, ![8, 256, 256, 256]⟩
abbrev S1x1x1x256 : Shape := ⟨4, ![1, 1, 1, 256]⟩
abbrev S8x256x256x1 : Shape := ⟨4, ![8, 256, 256, 1]⟩
abbrev S_ : Shape := ⟨0, ![]⟩
abbrev S8x1x256 : Shape := ⟨3, ![8, 1, 256]⟩

abbrev nBuf : Space → Nat
  | .hbm => 39
  | .vmem => 0
  | .smem => 0
  | _ => 0

abbrev bufTy : (tb : Table) → Fin (tcTables nBuf tb) → BufTy
  | .hbm, ⟨0, _⟩ => ⟨S256x8x256, .f32⟩
  | .hbm, ⟨1, _⟩ => ⟨S8x256, .f32⟩
  | .hbm, ⟨2, _⟩ => ⟨S256x512, .f32⟩
  | .hbm, ⟨3, _⟩ => ⟨S256, .f32⟩
  | .hbm, ⟨4, _⟩ => ⟨S1x256, .f32⟩
  | .hbm, ⟨5, _⟩ => ⟨S1, .f32⟩
  | .hbm, ⟨6, _⟩ => ⟨S8x256x256, .f32⟩
  | .hbm, ⟨7, _⟩ => ⟨S256x256, .f32⟩
  | .hbm, ⟨8, _⟩ => ⟨S256x256, .f32⟩
  | .hbm, ⟨9, _⟩ => ⟨S8x256x256, .f32⟩
  | .hbm, ⟨10, _⟩ => ⟨S8x256x256, .f32⟩
  | .hbm, ⟨11, _⟩ => ⟨S8x256x1x256, .f32⟩
  | .hbm, ⟨12, _⟩ => ⟨S8x1x256x256, .f32⟩
  | .hbm, ⟨13, _⟩ => ⟨S8x256x256x256, .f32⟩
  | .hbm, ⟨14, _⟩ => ⟨S8x256x256x256, .f32⟩
  | .hbm, ⟨15, _⟩ => ⟨S8x256x256x256, .f32⟩
  | .hbm, ⟨16, _⟩ => ⟨S1x1x1x256, .f32⟩
  | .hbm, ⟨17, _⟩ => ⟨S8x256x256x256, .f32⟩
  | .hbm, ⟨18, _⟩ => ⟨S8x256x256x256, .f32⟩
  | .hbm, ⟨19, _⟩ => ⟨S8x256x256x256, .f32⟩
  | .hbm, ⟨20, _⟩ => ⟨S8x256x256x1, .f32⟩
  | .hbm, ⟨21, _⟩ => ⟨S8x256x256, .f32⟩
  | .hbm, ⟨22, _⟩ => ⟨S_, .f32⟩
  | .hbm, ⟨23, _⟩ => ⟨S8x256x256, .f32⟩
  | .hbm, ⟨24, _⟩ => ⟨S8x256x256, .f32⟩
  | .hbm, ⟨25, _⟩ => ⟨S_, .f32⟩
  | .hbm, ⟨26, _⟩ => ⟨S8x256, .f32⟩
  | .hbm, ⟨27, _⟩ => ⟨S_, .f32⟩
  | .hbm, ⟨28, _⟩ => ⟨S8x256, .f32⟩
  | .hbm, ⟨29, _⟩ => ⟨S8x256, .f32⟩
  | .hbm, ⟨30, _⟩ => ⟨S8x1x256, .f32⟩
  | .hbm, ⟨31, _⟩ => ⟨S8x256x256, .f32⟩
  | .hbm, ⟨32, _⟩ => ⟨S8x256x256, .f32⟩
  | .hbm, ⟨33, _⟩ => ⟨S8x256x256, .f32⟩
  | .hbm, ⟨34, _⟩ => ⟨S_, .f32⟩
  | .hbm, ⟨35, _⟩ => ⟨S8x256, .f32⟩
  | .hbm, ⟨36, _⟩ => ⟨S8x1x256, .f32⟩
  | .hbm, ⟨37, _⟩ => ⟨S8x256x256, .f32⟩
  | .hbm, ⟨38, _⟩ => ⟨S8x256x256, .f32⟩
  | _, _ => ⟨S256x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  transposes_S256x8x256_S8x256x256_1_0_2 : S256x8x256.Transposes [1, 0, 2] S8x256x256
  slices_S256x512_S256x256_0_0 : S256x512.Slices ![0, 0] S256x256
  slices_S256x512_S256x256_0_256 : S256x512.Slices ![0, 256] S256x256
  bcast_S8x256x256_S8x256x1x256_0_1_3 : S8x256x256.BroadcastsInDim S8x256x1x256 (![0, 1, 3] : Fin 3 → Fin S8x256x1x256.rank)
  bcast_S8x256x256_S8x1x256x256_0_2_3 : S8x256x256.BroadcastsInDim S8x1x256x256 (![0, 2, 3] : Fin 3 → Fin S8x1x256x256.rank)
  bcast_S8x256x1x256_S8x256x256x256_0_1_2_3 : S8x256x1x256.BroadcastsInDim S8x256x256x256 (![0, 1, 2, 3] : Fin 4 → Fin S8x256x256x256.rank)
  bcast_S8x1x256x256_S8x256x256x256_0_1_2_3 : S8x1x256x256.BroadcastsInDim S8x256x256x256 (![0, 1, 2, 3] : Fin 4 → Fin S8x256x256x256.rank)
  bcast_S256_S1x1x1x256_3 : S256.BroadcastsInDim S1x1x1x256 (![3] : Fin 1 → Fin S1x1x1x256.rank)
  bcast_S1x1x1x256_S8x256x256x256_0_1_2_3 : S1x1x1x256.BroadcastsInDim S8x256x256x256 (![0, 1, 2, 3] : Fin 4 → Fin S8x256x256x256.rank)
  shapeCasts_S8x256x256x1_S8x256x256 : S8x256x256x1.ShapeCasts S8x256x256
  shapeCasts_S1_S_ : S1.ShapeCasts S_
  bcast_S_S8x256x256 : S_.BroadcastsInDim S8x256x256 (![] : Fin 0 → Fin S8x256x256.rank)
  reducesTo_S8x256x256_S8x256_d1 : S8x256x256.ReducesTo [1] S8x256
  h_S_ : 0 < S_.numel
  bcast_S_S8x256 : S_.BroadcastsInDim S8x256 (![] : Fin 0 → Fin S8x256.rank)
  bcast_S8x256_S8x1x256_0_2 : S8x256.BroadcastsInDim S8x1x256 (![0, 2] : Fin 2 → Fin S8x1x256.rank)
  bcast_S8x1x256_S8x256x256_0_1_2 : S8x1x256.BroadcastsInDim S8x256x256 (![0, 1, 2] : Fin 3 → Fin S8x256x256.rank)
  dot_S8x256x256_S256x256_S8x256x256_2_1_01_0_n_n_wf : DotDims.WF S8x256x256 S256x256 S8x256x256 [2] [1] [0, 1] [0] [] []
  dot_S8x256x256x256_S1x256_S8x256x256x1_3_1_012_0_n_n_wf : DotDims.WF S8x256x256x256 S1x256 S8x256x256x1 [3] [1] [0, 1, 2] [0] [] []

variable [Facts₀]

def dot_S8x256x256_S256x256_S8x256x256_2_1_01_0_n_n : DotDims S8x256x256 S256x256 S8x256x256 where
  lhsContracting := [2]
  rhsContracting := [1]
  lhsNonContracting := [0, 1]
  rhsNonContracting := [0]
  lhsBatch := []
  rhsBatch := []
  wf := dot_S8x256x256_S256x256_S8x256x256_2_1_01_0_n_n_wf
def dot_S8x256x256x256_S1x256_S8x256x256x1_3_1_012_0_n_n : DotDims S8x256x256x256 S1x256 S8x256x256x1 where
  lhsContracting := [3]
  rhsContracting := [1]
  lhsNonContracting := [0, 1, 2]
  rhsNonContracting := [0]
  lhsBatch := []
  rhsBatch := []
  wf := dot_S8x256x256x256_S1x256_S8x256x256x1_3_1_012_0_n_n_wf

class Facts : Prop extends Facts₀ where

variable [Facts]
-- ==== Proof.KnBody.lean ====
/-
  One grid point of the energies kernel as a separation-logic triple. The body reads its seven input blocks whole
  (a tile of 32 rows of one batch's hidden states, that batch's 256 rows, the two 256x256 weight halves, the bias
  row, the score row and the score bias), reads the output tile once without using what it read, and overwrites the
  whole output tile with ONE store: the tile of energies, a pure function of the seven blocks read. So after the
  body the output buffer holds that function of the inputs, and every input buffer holds what it held.
-/
import proofs.«117276_j41781441856090_1_alg».proof.Proof.Gen.Kernel.Launch
import proofs.«117276_j41781441856090_1_alg».proof.Proof.Gen.Kernel.Skeleton
import proofs.«117276_j41781441856090_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every one the whole buffer -/

abbrev rT : Rect S1x32x256 := Rect.unit (s := S1x32x256) ![0, 0, 0] S1x32x256.size inb_S1x32x256_S1x32x256_0_0_0
abbrev rB : Rect S1x256x256 := Rect.unit (s := S1x256x256) ![0, 0, 0] S1x256x256.size inb_S1x256x256_S1x256x256_0_0_0
abbrev rW : Rect S256x256 := Rect.unit (s := S256x256) ![0, 0] S256x256.size inb_S256x256_S256x256_0_0
abbrev rR : Rect S1x256 := Rect.unit (s := S1x256) ![0, 0] S1x256.size inb_S1x256_S1x256_0_0
abbrev rS : Rect S1x1 := Rect.unit (s := S1x1) ![0, 0] S1x1.size inb_S1x1_S1x1_0_0

/-- The tile of energies the body stores, from the seven blocks it reads: its single store, over the whole buffer. -/
def outTile (x0 : Vec F S1x32x256 .f32) (x1 : Vec F S1x256x256 .f32) (x2 x3 : Vec F S256x256 .f32) (x4 x5 : Vec F S1x256 .f32)
    (x6 : Vec F S1x1 .f32) : Vec F S1x32x256 .f32 :=
  View.canon [⟨rT, k0_pay1 (k0_pay2 (View.ld x0 rT) (View.ld x1 rB) (View.ld x2 rW) (View.ld x3 rW) (View.ld x4 rR) (View.ld x5 rR) (View.ld x6 rS))⟩]

/-- The one store covers the buffer. -/
theorem coverTile (p0 : Vec F S1x32x256 .f32) (y : S1x32x256.Idx) :
    ∃ pc ∈ ([⟨rT, p0⟩] : List (View.Piece (Elt F) S1x32x256 .f32)), y ∈ pc.1.set :=
  View.cover_of_tiled [⟨rT, p0⟩] S1x32x256.size (by rfl) y

set_option maxHeartbeats 1000000 in
/-- The body on whole staging buffers: the inputs at contents `x0 … x6`, the output at anything; it returns the inputs
    as they were and the output at `outTile` of them. -/
theorem sound_kernel (c : Dev nD) (E : Set ℕ) (i : grid0.Coords)
    (arg2 : Memref sig .tc .vmem S1x32x256 .f32) (harg2 : arg2.IsWhole) (arg3 : Memref sig .tc .vmem S1x256x256 .f32) (harg3 : arg3.IsWhole)
    (arg4 : Memref sig .tc .vmem S256x256 .f32) (harg4 : arg4.IsWhole) (arg5 : Memref sig .tc .vmem S256x256 .f32) (harg5 : arg5.IsWhole)
    (arg6 : Memref sig .tc .vmem S1x256 .f32) (harg6 : arg6.IsWhole) (arg7 : Memref sig .tc .vmem S1x256 .f32) (harg7 : arg7.IsWhole)
    (arg8 : Memref sig .tc .vmem S1x1 .f32) (harg8 : arg8.IsWhole) (arg9 : Memref sig .tc .vmem S1x32x256 .f32) (harg9 : arg9.IsWhole)
    (x0 : Vec F S1x32x256 .f32) (x1 : Vec F S1x256x256 .f32) (x2 x3 : Vec F S256x256 .f32) (x4 x5 : Vec F S1x256 .f32) (x6 : Vec F S1x1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (outTile x0 x1 x2 x3 x4 x5 x6)) -∗ K ⟨⟩))
      ⊢ wp frame (wpE (defs₀ (F := F)) Variants.none c none) E
          (cc0__energies_kernel i arg2 harg2 arg3 harg3 arg4 harg4 arg5 harg5 arg6 harg6 arg7 harg7 arg8 harg8 arg9 harg9) K := by
  simp only [cc0__energies_kernel_eq_skeleton]; unfold cc0__energies_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverTile _)

end Cert.Kernel.Hand

end
-- ==== Proof.KnData.lean ====
/-
  The proof data of the one pipelined region and its body obligation. The region runs on the arrays the seven host
  lines before it leave: the hidden states with the batch axis first (read by TWO windows: a 32-row tile and the
  batch's whole 256 rows), the two transposed halves of the attention weight, the bias as a row, the score row, the
  score bias as a 1x1 array. At every grid point each input buffer holds its window's block of its array, fetched at
  that point or kept from an earlier one, and the body leaves in the output buffer the tile of energies of those
  blocks; nothing else is touched.
-/
import proofs.«117276_j41781441856090_1_alg».proof.Proof.KnBody
import Idealize.ShloMosaic.Lib.Pipeline.Regions
import Idealize.ShloMosaic.Lib.Pipeline.Frame
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers at launch, as the host lines' valuation; -/
abbrev V₀ (c : Dev nD) : Valuation τ sig (Elt F) := fun b => m ((c : Dev nD), b)
/-- after the seven host lines before the region; -/
abbrev V₁ (c : Dev nD) : Valuation τ sig (Elt F) := StableHlo.after hostOps0 (V₀ m c)
/-- and the same read at a TensorCore reference. -/
abbrev V (c : Dev nD) (b : Ref sig .tc) : Buf (Elt F) ((c : Thread nD τ).loc b) := V₁ m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- The arrays as the region finds them; after the body at point `t` each input's buffer at its block and the
    output's at the tile of energies of the input blocks; the invariant: the scoped buffers no window stages (none);
    nothing owed. The two windows on the hidden states hold one half share of that array each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outTile (iblk m c 0 t) (iblk m c 1 t) (iblk m c 2 t) (iblk m c 3 t) (iblk m c 4 t) (iblk m c 5 t) (iblk m c 6 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t
    = outTile (iblk m c 0 t) (iblk m c 1 t) (iblk m c 2 t) (iblk m c 3 t) (iblk m c 4 t) (iblk m c 5 t) (iblk m c 6 t) := by dsimp only [dats]

/-! ## Each input buffer holds its block at every point, fetched there or not -/

theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KnRun.lean ====
/-
  The launch: @main as a list of three segments — the seven host lines before the region, the region, the fourteen
  host lines after it (a softmax along the second axis of the energies) — and what every final state holds: each
  argument array as launched, and the result array at the softmax lines' value of the energies the region wrote.
  The hidden-state array is read by two windows; its points-to is split into two half shares at the region's entry
  and joined again at its exit.
-/
import proofs.«117276_j41781441856090_1_alg».proof.Proof.KnData
import Idealize.ShloMosaic.Lib.Pipeline.Regions
import Idealize.ShloMosaic.Lib.Pipeline.Frame
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- The pipeline library's algebra is the whole of the certificate's. -/
abbrev EP : Emb (UR sig nD τ) (MT nD τ sig Unit (Elt F) ℕ (UR sig nD τ) ℕ) := emb₁
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers through the host lines: the core owing nothing. -/
abbrev R (c : Dev nD) : sProp 𝕄 := iprop(∃ W, owes (c : Thread nD τ) (0 : CellTallies nD τ sig Unit) W)

/-! ## The arrays, window by window, against the distinct buffers behind them -/

/-- The pipeline's arrays at contents `G`, one points-to per window: the two windows on the hidden states a half share each. -/
theorem arrays_chain (c : Dev nD) (G : (w : Fin cfg0.W) → Buf (Elt F) ((cfg0.win w).arr.view.loc (c : Thread nD τ))) :
    ((dats m 0 c).arrays G : sProp 𝕄) = iprop(
      ((((c : Thread nD τ).loc main_v0)) ↦{fullShare.left} G 0) ∗ ((((c : Thread nD τ).loc main_v0)) ↦{fullShare.right} G 1)
      ∗ ((((c : Thread nD τ).loc main_v3)) ↦{fullShare} G 2) ∗ ((((c : Thread nD τ).loc main_v4)) ↦{fullShare} G 3)
      ∗ ((((c : Thread nD τ).loc main_v5)) ↦{fullShare} G 4) ∗ ((((c : Thread nD τ).loc main_arg4)) ↦{fullShare} G 5)
      ∗ ((((c : Thread nD τ).loc main_v6)) ↦{fullShare} G 6) ∗ ((((c : Thread nD τ).loc main_v7)) ↦{fullShare} G 7)) := by
  have h1 : ((dats m 0 c).arrays G : sProp 𝕄) = bigSep Finset.univ fun w : Fin 8 =>
      ((((cfg0.win w).arr.view.loc (c : Thread nD τ)) ↦[Finset.univ]{(dats m 0 c).share w} G w) : sProp 𝕄) := by
    unfold Dat.arrays
    exact bigSep_congr fun w _ => by rw [Memref.IsWhole.set_eq_univ (arr_whole0 w)]
  rw [h1, bigSep_W0]
  rfl

/-- The distinct buffers behind the arrays, one by one. -/
theorem arrBufs_chain (c : Dev nD) (Vr : (b : Ref sig .tc) → Buf (Elt F) ((c : Thread nD τ).loc b)) :
    (Pipeline.arrBufs spec0 c Vr : sProp 𝕄) = iprop(
      ((((c : Thread nD τ).loc main_v0)) ↦{fullShare} Vr main_v0)
      ∗ ((((c : Thread nD τ).loc main_v3)) ↦{fullShare} Vr main_v3) ∗ ((((c : Thread nD τ).loc main_v4)) ↦{fullShare} Vr main_v4)
      ∗ ((((c : Thread nD τ).loc main_v5)) ↦{fullShare} Vr main_v5) ∗ ((((c : Thread nD τ).loc main_arg4)) ↦{fullShare} Vr main_arg4)
      ∗ ((((c : Thread nD τ).loc main_v6)) ↦{fullShare} Vr main_v6) ∗ ((((c : Thread nD τ).loc main_v7)) ↦{fullShare} Vr main_v7)) := by
  unfold Pipeline.arrBufs
  rw [bigSep_eq_bigSepL_of_eq [main_v0, main_v3, main_v4, main_v5, main_arg4, main_v6, main_v7] (by decide) (by decide)]
  rfl

/-- Splitting the hidden states' buffer between its two windows: the buffers behind the arrays at contents `Vr` are the
    pipeline's arrays at those contents, -/
theorem arrays_of_arrBufs (c : Dev nD) (Vr : (b : Ref sig .tc) → Buf (Elt F) ((c : Thread nD τ).loc b)) :
    (Pipeline.arrBufs spec0 c Vr : sProp 𝕄) ⊢ (dats m 0 c).arrays (fun w => Vr (Pipeline.arrRef spec0 w)) := by
  rw [arrays_chain, arrBufs_chain]
  iintro ⟨H0, H3, H4, H5, H6, H7, H8⟩
  ihave H0' := (pointsTo_share (PosShare.mem_left_op_right fullShare)).1 $$ H0
  icases H0' with ⟨Ha, Hb⟩
  isplitl [Ha]; · iexact Ha
  isplitl [Hb]; · iexact Hb
  isplitl [H3]; · iexact H3
  isplitl [H4]; · iexact H4
  isplitl [H5]; · iexact H5
  isplitl [H6]; · iexact H6
  isplitl [H7]; · iexact H7
  iexact H8

/-- and joining the two halves gives the buffers back. -/
theorem arrBufs_of_arrays (c : Dev nD) (Vr : (b : Ref sig .tc) → Buf (Elt F) ((c : Thread nD τ).loc b)) :
    ((dats m 0 c).arrays (fun w => Vr (Pipeline.arrRef spec0 w)) : sProp 𝕄) ⊢ Pipeline.arrBufs spec0 c Vr := by
  rw [arrays_chain, arrBufs_chain]
  iintro ⟨Ha, Hb, H3, H4, H5, H6, H7, H8⟩
  isplitl [Ha Hb]
  · iapply (pointsTo_share (PosShare.mem_left_op_right fullShare)).2
    isplitl [Ha]; · iexact Ha
    iexact Hb
  isplitl [H3]; · iexact H3
  isplitl [H4]; · iexact H4
  isplitl [H5]; · iexact H5
  isplitl [H6]; · iexact H6
  isplitl [H7]; · iexact H7
  iexact H8

/-! ## The buffers when the region is left -/

/-- The energies the region leaves in its result array. -/
def energies (c : Dev nD) : Buf (Elt F) ((c : Thread nD τ).loc main_v7) := (dats m 0 c).arrAt 7 cfg0.N

/-- Core `c`'s buffers after the region: the result array at the energies, every other buffer as the region found it. -/
def V₂ (c : Dev nD) : Valuation τ sig (Elt F) := Function.update (V₁ m c) (Proc.devRef .tc main_v7) (energies m c)

theorem V₂_v7 (c : Dev nD) : V₂ m c (Proc.devRef .tc main_v7) = energies m c := by
  unfold V₂; exact Function.update_self ..

theorem V₂_of_ne (c : Dev nD) (b : Ref sig .tc) (hb : b ≠ main_v7) : V₂ m c (Proc.devRef .tc b) = V₁ m c (Proc.devRef .tc b) := by
  unfold V₂; exact Function.update_of_ne (StableHlo.devRef_ne_of_ne hb) ..

/-- The arrays after the last point are those buffers' contents: an input array is never written. -/
theorem arrAt_last (c : Dev nD) (w : Fin cfg0.W) :
    (dats m 0 c).arrAt w cfg0.N = V₂ m c (Proc.devRef .tc (Pipeline.arrRef spec0 w)) := by
  match w with
  | ⟨0, _⟩ => exact ((dats m 0 c).arrAt_in 0 rfl _).trans ((A_eq m c 0).trans (V₂_of_ne m c _ (by decide)).symm)
  | ⟨1, _⟩ => exact ((dats m 0 c).arrAt_in 1 rfl _).trans ((A_eq m c 1).trans (V₂_of_ne m c _ (by decide)).symm)
  | ⟨2, _⟩ => exact ((dats m 0 c).arrAt_in 2 rfl _).trans ((A_eq m c 2).trans (V₂_of_ne m c _ (by decide)).symm)
  | ⟨3, _⟩ => exact ((dats m 0 c).arrAt_in 3 rfl _).trans ((A_eq m c 3).trans (V₂_of_ne m c _ (by decide)).symm)
  | ⟨4, _⟩ => exact ((dats m 0 c).arrAt_in 4 rfl _).trans ((A_eq m c 4).trans (V₂_of_ne m c _ (by decide)).symm)
  | ⟨5, _⟩ => exact ((dats m 0 c).arrAt_in 5 rfl _).trans ((A_eq m c 5).trans (V₂_of_ne m c _ (by decide)).symm)
  | ⟨6, _⟩ => exact ((dats m 0 c).arrAt_in 6 rfl _).trans ((A_eq m c 6).trans (V₂_of_ne m c _ (by decide)).symm)
  | ⟨7, _⟩ => exact (V₂_v7 m c).symm

/-- Off the arrays the two valuations agree. -/
theorem unscopedRest_V₂ (c : Dev nD) :
    (Pipeline.unscopedRest spec0 c (V m c) : sProp 𝕄) = Pipeline.unscopedRest spec0 c (fun b => V₂ m c (Proc.devRef .tc b)) := by
  unfold Pipeline.unscopedRest
  exact bigSep_congr fun b hb => by
    dsimp only
    rw [V₂_of_ne m c b fun h => (Finset.mem_sdiff.mp hb).2 (Finset.mem_image.mpr ⟨7, Finset.mem_univ _, h.symm⟩)]

/-! ## The segments -/

theorem hostOps0_fresh : ∀ op ∈ (hostOps0 (F := F)), op.fresh = ∅ := by
  intro _ h; (repeat (cases h with | head => rfl | tail _ h => ?_)); exact nomatch h
theorem hostOps1_fresh : ∀ op ∈ (hostOps1 (F := F)), op.fresh = ∅ := by
  intro _ h; (repeat (cases h with | head => rfl | tail _ h => ?_)); exact nomatch h

/-- The seven host lines before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (V₀ m) R

/-- The fourteen host lines after it. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) hostOps1_fresh (V₂ m) R

set_option backward.isDefEq.respectTransparency.types false in
/-- The region: entered from the buffers the first lines left — the windows' arrays into the pipeline, the hidden states
    split between their two windows, every other buffer bypassing —, left with the result array at the energies. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V₁ m c) ∗ R c)
  post c := iprop(StableHlo.held (c : Thread nD τ) (Pipeline.ucRefs τ sig) (V₂ m c) ∗ R c)
  X c := iprop(emp)
  Y c := iprop(emp)
  Z c := Pipeline.unscopedRest spec0 c (V m c)
  hentry c := by
    rw [show StableHlo.held (c : Thread nD τ) (Pipeline.ucRefs τ sig) (V₁ m c) = unscopedBufs c (V m c) from (Pipeline.unscopedBufs_held c _).symm,
      Pipeline.unscopedBufs_split₀ cfgs 0 winFacts₀0.arr_unscoped c (V m c)]
    iintro ⟨⟨⟨Ha, Hr⟩, HO⟩, -, -⟩
    ihave Ha' := (arrays_of_arrBufs m c (V m c)) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = Pipeline.scopedRest spec0 c from rfl]
    iintro ⟨-, -, Hr⟩
    iexact Hr
  hout c := by
    rw [Pipeline.ownSems0_none, show (dats m 0 c).Φ (Fin.last cfg0.N) = Pipeline.scopedRest spec0 c from rfl]
    iintro Hr
    isplitr; · iempintro
    isplitr; · iempintro
    iexact Hr
  hexit c := by
    rw [show StableHlo.held (c : Thread nD τ) (Pipeline.ucRefs τ sig) (V₂ m c) = unscopedBufs c (fun b => V₂ m c (Proc.devRef .tc b)) from (Pipeline.unscopedBufs_held c _).symm,
      Pipeline.unscopedBufs_split₀ cfgs 0 winFacts₀0.arr_unscoped c (fun b => V₂ m c (Proc.devRef .tc b)),
      show (fun w => (dats m 0 c).arrAt w cfg0.N) = (fun w => (fun b => V₂ m c (Proc.devRef .tc b)) (Pipeline.arrRef spec0 w)) from funext (arrAt_last m c)]
    rw [← unscopedRest_V₂ m c]
    have hjoin := arrBufs_of_arrays m c (fun b => V₂ m c (Proc.devRef .tc b))
    iintro ⟨Ha, HO, -, HZ⟩
    ihave Ha' := hjoin $$ Ha
    imodintro
    isplitr [HO]
    · isplitl [Ha']; · iexact Ha'
      iexact HZ
    · unfold Pipeline.Dat.owesAt Pipeline.owesWithin
      icases HO with ⟨%W, -, HO⟩; iexists W; iexact HO

/-! ## The run -/

/-- No host line before the region writes an argument array, -/
theorem not_written0 (b : Ref sig .tc) (hb : b ≠ main_v0 ∧ b ≠ main_v1 ∧ b ≠ main_v2 ∧ b ≠ main_v3 ∧ b ≠ main_v4 ∧ b ≠ main_v5 ∧ b ≠ main_v6) :
    ∀ op ∈ (hostOps0 (F := F)), Proc.devRef .tc b ∉ op.writes := by
  obtain ⟨h0, h1, h2, h3, h4, h5, h6⟩ := hb
  intro op hop
  simp only [List.mem_cons, List.mem_nil_iff, or_false] at hop
  rcases hop with rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- and none after it. -/
theorem not_written1 (b : Ref sig .tc) (hb : b ≠ main_cst ∧ b ≠ main_v8 ∧ b ≠ main_cst_0 ∧ b ≠ main_v9 ∧ b ≠ main_v10 ∧ b ≠ main_v11 ∧ b ≠ main_v12
      ∧ b ≠ main_v13 ∧ b ≠ main_v14 ∧ b ≠ main_cst_1 ∧ b ≠ main_v15 ∧ b ≠ main_v16 ∧ b ≠ main_v17 ∧ b ≠ main_v18) :
    ∀ op ∈ (hostOps1 (F := F)), Proc.devRef .tc b ∉ op.writes := by
  obtain ⟨h0, h1, h2, h3, h4, h5, h6, h7, h8, h9, h10, h11, h12, h13⟩ := hb
  intro op hop
  simp only [List.mem_cons, List.mem_nil_iff, or_false] at hop
  rcases hop with rfl | rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- Core `c`'s buffers when @main returns. -/
abbrev V₃ (c : Dev nD) : Valuation τ sig (Elt F) := StableHlo.after hostOps1 (V₂ m c)

/-- An argument array ends as launched: no host line writes it, and the region only reads its inputs. -/
theorem V₃_arg (c : Dev nD) (b : Ref sig .tc)
    (h0 : b ≠ main_v0 ∧ b ≠ main_v1 ∧ b ≠ main_v2 ∧ b ≠ main_v3 ∧ b ≠ main_v4 ∧ b ≠ main_v5 ∧ b ≠ main_v6) (h7 : b ≠ main_v7)
    (h1 : b ≠ main_cst ∧ b ≠ main_v8 ∧ b ≠ main_cst_0 ∧ b ≠ main_v9 ∧ b ≠ main_v10 ∧ b ≠ main_v11 ∧ b ≠ main_v12
      ∧ b ≠ main_v13 ∧ b ≠ main_v14 ∧ b ≠ main_cst_1 ∧ b ≠ main_v15 ∧ b ≠ main_v16 ∧ b ≠ main_v17 ∧ b ≠ main_v18) :
    V₃ m c (Proc.devRef .tc b) = m ((c : Thread nD τ).loc b) :=
  (StableHlo.after_of_forall_not_mem (b := Proc.devRef .tc b) hostOps1 (V₂ m c) (not_written1 b h1)).trans
    ((V₂_of_ne m c b h7).trans (StableHlo.after_of_forall_not_mem (b := Proc.devRef .tc b) hostOps0 (V₀ m c) (not_written0 b h0)))

/-- What every final state holds: the result array at the last host lines' value, the six argument arrays as launched. -/
def QC : PUnit × MemSt nD τ sig (Elt F) → Prop := fun r =>
  ∀ c : Dev nD, r.2.mem ((c : Thread nD τ).loc main_v18) = V₃ m c (Proc.devRef .tc main_v18)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)

set_option backward.isDefEq.respectTransparency.types false in
/-- At the compiled mesh, for any float values, from any memory with zero counters: every weakly fair execution of
    @main on the TensorCores terminates, and every final state satisfies `QC`. -/
theorem run_main : θ_run defs (onTc (τ := τ) (main (F := F))) (s₀ m ρ) (QC m) :=
  Pipeline.θ_run_regions_kit (pcfgs (F := F)) adm (dats m) () cellOf_inj EP defs₀ 𝒱₀ L lv m ρ main
    [.host (seg0 m), .region (reg0 m), .host (seg1 m)]
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (V₃ m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v18) = V₃ m c (Proc.devRef .tc main_v18)
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4)
      ∧ s.mem ((c : Thread nD τ).loc main_arg5) = m ((c : Thread nD τ).loc main_arg5))
    (hfin := fun c s' => by
      rw [show StableHlo.held (c : Thread nD τ) (Pipeline.ucRefs τ sig) (V₃ m c) = unscopedBufs c (fun b => V₃ m c (Proc.devRef .tc b)) from (Pipeline.unscopedBufs_held c _).symm]
      unfold unscopedBufs
      have hread := pointsTo_read_all (Ix := Unit) (Name := ℕ) (U := UR sig nD τ) (Lvl := ℕ) (Finset.univ.filter fun b : Ref sig .tc => ¬ b.isScoped) (fun b => (c : Thread nD τ).loc b) (fun b => V₃ m c (Proc.devRef .tc b)) s'
      iintro ⟨Hh, HSI⟩
      ihave Hr := hread $$ [Hh HSI]
      · isplitl [Hh] <;> iassumption
      icases Hr with ⟨%hr, HSI⟩
      imodintro
      isplitr; swap; (· iexact HSI)
      ipureintro
      refine ⟨hr main_v18 (by decide), ?_, ?_, ?_, ?_, ?_, ?_⟩
      · exact (hr main_arg0 (by decide)).trans (V₃_arg m c main_arg0 (by decide) (by decide) (by decide))
      · exact (hr main_arg1 (by decide)).trans (V₃_arg m c main_arg1 (by decide) (by decide) (by decide))
      · exact (hr main_arg2 (by decide)).trans (V₃_arg m c main_arg2 (by decide) (by decide) (by decide))
      · exact (hr main_arg3 (by decide)).trans (V₃_arg m c main_arg3 (by decide) (by decide) (by decide))
      · exact (hr main_arg4 (by decide)).trans (V₃_arg m c main_arg4 (by decide) (by decide) (by decide))
      · exact (hr main_arg5 (by decide)).trans (V₃_arg m c main_arg5 (by decide) (by decide) (by decide)))
    (hQ := fun _ h => h)

end Cert.Kernel.Hand

end
-- ==== Proof.KiBody.lean ====
/-
  One grid point of the energies kernel as a separation-logic triple. The body reads its seven input blocks whole
  (a tile of 32 rows of one batch's hidden states, that batch's 256 rows, the two 256x256 weight halves, the bias
  row, the score row and the score bias), reads the output tile once without using what it read, and overwrites the
  whole output tile with ONE store: the tile of energies, a pure function of the seven blocks read. So after the
  body the output buffer holds that function of the inputs, and every input buffer holds what it held.
-/
import proofs.«117276_j41781441856090_1_alg».proof.Proof.Gen.KernelIdeal.Launch
import proofs.«117276_j41781441856090_1_alg».proof.Proof.Gen.KernelIdeal.Skeleton
import proofs.«117276_j41781441856090_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every one the whole buffer -/

abbrev rT : Rect S1x32x256 := Rect.unit (s := S1x32x256) ![0, 0, 0] S1x32x256.size inb_S1x32x256_S1x32x256_0_0_0
abbrev rB : Rect S1x256x256 := Rect.unit (s := S1x256x256) ![0, 0, 0] S1x256x256.size inb_S1x256x256_S1x256x256_0_0_0
abbrev rW : Rect S256x256 := Rect.unit (s := S256x256) ![0, 0] S256x256.size inb_S256x256_S256x256_0_0
abbrev rR : Rect S1x256 := Rect.unit (s := S1x256) ![0, 0] S1x256.size inb_S1x256_S1x256_0_0
abbrev rS : Rect S1x1 := Rect.unit (s := S1x1) ![0, 0] S1x1.size inb_S1x1_S1x1_0_0

/-- The tile of energies the body stores, from the seven blocks it reads: its single store, over the whole buffer. -/
def outTile (x0 : Vec F S1x32x256 .f32) (x1 : Vec F S1x256x256 .f32) (x2 x3 : Vec F S256x256 .f32) (x4 x5 : Vec F S1x256 .f32)
    (x6 : Vec F S1x1 .f32) : Vec F S1x32x256 .f32 :=
  View.canon [⟨rT, k0_pay1 (k0_pay2 (View.ld x0 rT) (View.ld x1 rB) (View.ld x2 rW) (View.ld x3 rW) (View.ld x4 rR) (View.ld x5 rR) (View.ld x6 rS))⟩]

/-- The one store covers the buffer. -/
theorem coverTile (p0 : Vec F S1x32x256 .f32) (y : S1x32x256.Idx) :
    ∃ pc ∈ ([⟨rT, p0⟩] : List (View.Piece (Elt F) S1x32x256 .f32)), y ∈ pc.1.set :=
  View.cover_of_tiled [⟨rT, p0⟩] S1x32x256.size (by rfl) y

set_option maxHeartbeats 1000000 in
/-- The body on whole staging buffers: the inputs at contents `x0 … x6`, the output at anything; it returns the inputs
    as they were and the output at `outTile` of them. -/
theorem sound_kernel (c : Dev nD) (E : Set ℕ) (i : grid0.Coords)
    (arg2 : Memref sig .tc .vmem S1x32x256 .f32) (harg2 : arg2.IsWhole) (arg3 : Memref sig .tc .vmem S1x256x256 .f32) (harg3 : arg3.IsWhole)
    (arg4 : Memref sig .tc .vmem S256x256 .f32) (harg4 : arg4.IsWhole) (arg5 : Memref sig .tc .vmem S256x256 .f32) (harg5 : arg5.IsWhole)
    (arg6 : Memref sig .tc .vmem S1x256 .f32) (harg6 : arg6.IsWhole) (arg7 : Memref sig .tc .vmem S1x256 .f32) (harg7 : arg7.IsWhole)
    (arg8 : Memref sig .tc .vmem S1x1 .f32) (harg8 : arg8.IsWhole) (arg9 : Memref sig .tc .vmem S1x32x256 .f32) (harg9 : arg9.IsWhole)
    (x0 : Vec F S1x32x256 .f32) (x1 : Vec F S1x256x256 .f32) (x2 x3 : Vec F S256x256 .f32) (x4 x5 : Vec F S1x256 .f32) (x6 : Vec F S1x1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (outTile x0 x1 x2 x3 x4 x5 x6)) -∗ K ⟨⟩))
      ⊢ wp frame (wpE (defs₀ (F := F)) Variants.none c none) E
          (cc0__energies_kernel i arg2 harg2 arg3 harg3 arg4 harg4 arg5 harg5 arg6 harg6 arg7 harg7 arg8 harg8 arg9 harg9) K := by
  simp only [cc0__energies_kernel_eq_skeleton]; unfold cc0__energies_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverTile _)

end Cert.KernelIdeal.Hand

end
-- ==== Proof.KiData.lean ====
/-
  The proof data of the one pipelined region and its body obligation. The region runs on the arrays the seven host
  lines before it leave: the hidden states with the batch axis first (read by TWO windows: a 32-row tile and the
  batch's whole 256 rows), the two transposed halves of the attention weight, the bias as a row, the score row, the
  score bias as a 1x1 array. At every grid point each input buffer holds its window's block of its array, fetched at
  that point or kept from an earlier one, and the body leaves in the output buffer the tile of energies of those
  blocks; nothing else is touched.
-/
import proofs.«117276_j41781441856090_1_alg».proof.Proof.KiBody
import Idealize.ShloMosaic.Lib.Pipeline.Regions
import Idealize.ShloMosaic.Lib.Pipeline.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers at launch, as the host lines' valuation; -/
abbrev V₀ (c : Dev nD) : Valuation τ sig (Elt F) := fun b => m ((c : Dev nD), b)
/-- after the seven host lines before the region; -/
abbrev V₁ (c : Dev nD) : Valuation τ sig (Elt F) := StableHlo.after hostOps0 (V₀ m c)
/-- and the same read at a TensorCore reference. -/
abbrev V (c : Dev nD) (b : Ref sig .tc) : Buf (Elt F) ((c : Thread nD τ).loc b) := V₁ m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- The arrays as the region finds them; after the body at point `t` each input's buffer at its block and the
    output's at the tile of energies of the input blocks; the invariant: the scoped buffers no window stages (none);
    nothing owed. The two windows on the hidden states hold one half share of that array each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outTile (iblk m c 0 t) (iblk m c 1 t) (iblk m c 2 t) (iblk m c 3 t) (iblk m c 4 t) (iblk m c 5 t) (iblk m c 6 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t
    = outTile (iblk m c 0 t) (iblk m c 1 t) (iblk m c 2 t) (iblk m c 3 t) (iblk m c 4 t) (iblk m c 5 t) (iblk m c 6 t) := by dsimp only [dats]

/-! ## Each input buffer holds its block at every point, fetched there or not -/

theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KiRun.lean ====
/-
  The launch: @main as a list of three segments — the seven host lines before the region, the region, the fourteen
  host lines after it (a softmax along the second axis of the energies) — and what every final state holds: each
  argument array as launched, and the result array at the softmax lines' value of the energies the region wrote.
  The hidden-state array is read by two windows; its points-to is split into two half shares at the region's entry
  and joined again at its exit.
-/
import proofs.«117276_j41781441856090_1_alg».proof.Proof.KiData
import Idealize.ShloMosaic.Lib.Pipeline.Regions
import Idealize.ShloMosaic.Lib.Pipeline.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- The pipeline library's algebra is the whole of the certificate's. -/
abbrev EP : Emb (UR sig nD τ) (MT nD τ sig Unit (Elt F) ℕ (UR sig nD τ) ℕ) := emb₁
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers through the host lines: the core owing nothing. -/
abbrev R (c : Dev nD) : sProp 𝕄 := iprop(∃ W, owes (c : Thread nD τ) (0 : CellTallies nD τ sig Unit) W)

/-! ## The arrays, window by window, against the distinct buffers behind them -/

/-- The pipeline's arrays at contents `G`, one points-to per window: the two windows on the hidden states a half share each. -/
theorem arrays_chain (c : Dev nD) (G : (w : Fin cfg0.W) → Buf (Elt F) ((cfg0.win w).arr.view.loc (c : Thread nD τ))) :
    ((dats m 0 c).arrays G : sProp 𝕄) = iprop(
      ((((c : Thread nD τ).loc main_v0)) ↦{fullShare.left} G 0) ∗ ((((c : Thread nD τ).loc main_v0)) ↦{fullShare.right} G 1)
      ∗ ((((c : Thread nD τ).loc main_v3)) ↦{fullShare} G 2) ∗ ((((c : Thread nD τ).loc main_v4)) ↦{fullShare} G 3)
      ∗ ((((c : Thread nD τ).loc main_v5)) ↦{fullShare} G 4) ∗ ((((c : Thread nD τ).loc main_arg4)) ↦{fullShare} G 5)
      ∗ ((((c : Thread nD τ).loc main_v6)) ↦{fullShare} G 6) ∗ ((((c : Thread nD τ).loc main_v7)) ↦{fullShare} G 7)) := by
  have h1 : ((dats m 0 c).arrays G : sProp 𝕄) = bigSep Finset.univ fun w : Fin 8 =>
      ((((cfg0.win w).arr.view.loc (c : Thread nD τ)) ↦[Finset.univ]{(dats m 0 c).share w} G w) : sProp 𝕄) := by
    unfold Dat.arrays
    exact bigSep_congr fun w _ => by rw [Memref.IsWhole.set_eq_univ (arr_whole0 w)]
  rw [h1, bigSep_W0]
  rfl

/-- The distinct buffers behind the arrays, one by one. -/
theorem arrBufs_chain (c : Dev nD) (Vr : (b : Ref sig .tc) → Buf (Elt F) ((c : Thread nD τ).loc b)) :
    (Pipeline.arrBufs spec0 c Vr : sProp 𝕄) = iprop(
      ((((c : Thread nD τ).loc main_v0)) ↦{fullShare} Vr main_v0)
      ∗ ((((c : Thread nD τ).loc main_v3)) ↦{fullShare} Vr main_v3) ∗ ((((c : Thread nD τ).loc main_v4)) ↦{fullShare} Vr main_v4)
      ∗ ((((c : Thread nD τ).loc main_v5)) ↦{fullShare} Vr main_v5) ∗ ((((c : Thread nD τ).loc main_arg4)) ↦{fullShare} Vr main_arg4)
      ∗ ((((c : Thread nD τ).loc main_v6)) ↦{fullShare} Vr main_v6) ∗ ((((c : Thread nD τ).loc main_v7)) ↦{fullShare} Vr main_v7)) := by
  unfold Pipeline.arrBufs
  rw [bigSep_eq_bigSepL_of_eq [main_v0, main_v3, main_v4, main_v5, main_arg4, main_v6, main_v7] (by decide) (by decide)]
  rfl

/-- Splitting the hidden states' buffer between its two windows: the buffers behind the arrays at contents `Vr` are the
    pipeline's arrays at those contents, -/
theorem arrays_of_arrBufs (c : Dev nD) (Vr : (b : Ref sig .tc) → Buf (Elt F) ((c : Thread nD τ).loc b)) :
    (Pipeline.arrBufs spec0 c Vr : sProp 𝕄) ⊢ (dats m 0 c).arrays (fun w => Vr (Pipeline.arrRef spec0 w)) := by
  rw [arrays_chain, arrBufs_chain]
  iintro ⟨H0, H3, H4, H5, H6, H7, H8⟩
  ihave H0' := (pointsTo_share (PosShare.mem_left_op_right fullShare)).1 $$ H0
  icases H0' with ⟨Ha, Hb⟩
  isplitl [Ha]; · iexact Ha
  isplitl [Hb]; · iexact Hb
  isplitl [H3]; · iexact H3
  isplitl [H4]; · iexact H4
  isplitl [H5]; · iexact H5
  isplitl [H6]; · iexact H6
  isplitl [H7]; · iexact H7
  iexact H8

/-- and joining the two halves gives the buffers back. -/
theorem arrBufs_of_arrays (c : Dev nD) (Vr : (b : Ref sig .tc) → Buf (Elt F) ((c : Thread nD τ).loc b)) :
    ((dats m 0 c).arrays (fun w => Vr (Pipeline.arrRef spec0 w)) : sProp 𝕄) ⊢ Pipeline.arrBufs spec0 c Vr := by
  rw [arrays_chain, arrBufs_chain]
  iintro ⟨Ha, Hb, H3, H4, H5, H6, H7, H8⟩
  isplitl [Ha Hb]
  · iapply (pointsTo_share (PosShare.mem_left_op_right fullShare)).2
    isplitl [Ha]; · iexact Ha
    iexact Hb
  isplitl [H3]; · iexact H3
  isplitl [H4]; · iexact H4
  isplitl [H5]; · iexact H5
  isplitl [H6]; · iexact H6
  isplitl [H7]; · iexact H7
  iexact H8

/-! ## The buffers when the region is left -/

/-- The energies the region leaves in its result array. -/
def energies (c : Dev nD) : Buf (Elt F) ((c : Thread nD τ).loc main_v7) := (dats m 0 c).arrAt 7 cfg0.N

/-- Core `c`'s buffers after the region: the result array at the energies, every other buffer as the region found it. -/
def V₂ (c : Dev nD) : Valuation τ sig (Elt F) := Function.update (V₁ m c) (Proc.devRef .tc main_v7) (energies m c)

theorem V₂_v7 (c : Dev nD) : V₂ m c (Proc.devRef .tc main_v7) = energies m c := by
  unfold V₂; exact Function.update_self ..

theorem V₂_of_ne (c : Dev nD) (b : Ref sig .tc) (hb : b ≠ main_v7) : V₂ m c (Proc.devRef .tc b) = V₁ m c (Proc.devRef .tc b) := by
  unfold V₂; exact Function.update_of_ne (StableHlo.devRef_ne_of_ne hb) ..

/-- The arrays after the last point are those buffers' contents: an input array is never written. -/
theorem arrAt_last (c : Dev nD) (w : Fin cfg0.W) :
    (dats m 0 c).arrAt w cfg0.N = V₂ m c (Proc.devRef .tc (Pipeline.arrRef spec0 w)) := by
  match w with
  | ⟨0, _⟩ => exact ((dats m 0 c).arrAt_in 0 rfl _).trans ((A_eq m c 0).trans (V₂_of_ne m c _ (by decide)).symm)
  | ⟨1, _⟩ => exact ((dats m 0 c).arrAt_in 1 rfl _).trans ((A_eq m c 1).trans (V₂_of_ne m c _ (by decide)).symm)
  | ⟨2, _⟩ => exact ((dats m 0 c).arrAt_in 2 rfl _).trans ((A_eq m c 2).trans (V₂_of_ne m c _ (by decide)).symm)
  | ⟨3, _⟩ => exact ((dats m 0 c).arrAt_in 3 rfl _).trans ((A_eq m c 3).trans (V₂_of_ne m c _ (by decide)).symm)
  | ⟨4, _⟩ => exact ((dats m 0 c).arrAt_in 4 rfl _).trans ((A_eq m c 4).trans (V₂_of_ne m c _ (by decide)).symm)
  | ⟨5, _⟩ => exact ((dats m 0 c).arrAt_in 5 rfl _).trans ((A_eq m c 5).trans (V₂_of_ne m c _ (by decide)).symm)
  | ⟨6, _⟩ => exact ((dats m 0 c).arrAt_in 6 rfl _).trans ((A_eq m c 6).trans (V₂_of_ne m c _ (by decide)).symm)
  | ⟨7, _⟩ => exact (V₂_v7 m c).symm

/-- Off the arrays the two valuations agree. -/
theorem unscopedRest_V₂ (c : Dev nD) :
    (Pipeline.unscopedRest spec0 c (V m c) : sProp 𝕄) = Pipeline.unscopedRest spec0 c (fun b => V₂ m c (Proc.devRef .tc b)) := by
  unfold Pipeline.unscopedRest
  exact bigSep_congr fun b hb => by
    dsimp only
    rw [V₂_of_ne m c b fun h => (Finset.mem_sdiff.mp hb).2 (Finset.mem_image.mpr ⟨7, Finset.mem_univ _, h.symm⟩)]

/-! ## The segments -/

theorem hostOps0_fresh : ∀ op ∈ (hostOps0 (F := F)), op.fresh = ∅ := by
  intro _ h; (repeat (cases h with | head => rfl | tail _ h => ?_)); exact nomatch h
theorem hostOps1_fresh : ∀ op ∈ (hostOps1 (F := F)), op.fresh = ∅ := by
  intro _ h; (repeat (cases h with | head => rfl | tail _ h => ?_)); exact nomatch h

/-- The seven host lines before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (V₀ m) R

/-- The fourteen host lines after it. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) hostOps1_fresh (V₂ m) R

set_option backward.isDefEq.respectTransparency.types false in
/-- The region: entered from the buffers the first lines left — the windows' arrays into the pipeline, the hidden states
    split between their two windows, every other buffer bypassing —, left with the result array at the energies. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V₁ m c) ∗ R c)
  post c := iprop(StableHlo.held (c : Thread nD τ) (Pipeline.ucRefs τ sig) (V₂ m c) ∗ R c)
  X c := iprop(emp)
  Y c := iprop(emp)
  Z c := Pipeline.unscopedRest spec0 c (V m c)
  hentry c := by
    rw [show StableHlo.held (c : Thread nD τ) (Pipeline.ucRefs τ sig) (V₁ m c) = unscopedBufs c (V m c) from (Pipeline.unscopedBufs_held c _).symm,
      Pipeline.unscopedBufs_split₀ cfgs 0 winFacts₀0.arr_unscoped c (V m c)]
    iintro ⟨⟨⟨Ha, Hr⟩, HO⟩, -, -⟩
    ihave Ha' := (arrays_of_arrBufs m c (V m c)) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = Pipeline.scopedRest spec0 c from rfl]
    iintro ⟨-, -, Hr⟩
    iexact Hr
  hout c := by
    rw [Pipeline.ownSems0_none, show (dats m 0 c).Φ (Fin.last cfg0.N) = Pipeline.scopedRest spec0 c from rfl]
    iintro Hr
    isplitr; · iempintro
    isplitr; · iempintro
    iexact Hr
  hexit c := by
    rw [show StableHlo.held (c : Thread nD τ) (Pipeline.ucRefs τ sig) (V₂ m c) = unscopedBufs c (fun b => V₂ m c (Proc.devRef .tc b)) from (Pipeline.unscopedBufs_held c _).symm,
      Pipeline.unscopedBufs_split₀ cfgs 0 winFacts₀0.arr_unscoped c (fun b => V₂ m c (Proc.devRef .tc b)),
      show (fun w => (dats m 0 c).arrAt w cfg0.N) = (fun w => (fun b => V₂ m c (Proc.devRef .tc b)) (Pipeline.arrRef spec0 w)) from funext (arrAt_last m c)]
    rw [← unscopedRest_V₂ m c]
    have hjoin := arrBufs_of_arrays m c (fun b => V₂ m c (Proc.devRef .tc b))
    iintro ⟨Ha, HO, -, HZ⟩
    ihave Ha' := hjoin $$ Ha
    imodintro
    isplitr [HO]
    · isplitl [Ha']; · iexact Ha'
      iexact HZ
    · unfold Pipeline.Dat.owesAt Pipeline.owesWithin
      icases HO with ⟨%W, -, HO⟩; iexists W; iexact HO

/-! ## The run -/

/-- No host line before the region writes an argument array, -/
theorem not_written0 (b : Ref sig .tc) (hb : b ≠ main_v0 ∧ b ≠ main_v1 ∧ b ≠ main_v2 ∧ b ≠ main_v3 ∧ b ≠ main_v4 ∧ b ≠ main_v5 ∧ b ≠ main_v6) :
    ∀ op ∈ (hostOps0 (F := F)), Proc.devRef .tc b ∉ op.writes := by
  obtain ⟨h0, h1, h2, h3, h4, h5, h6⟩ := hb
  intro op hop
  simp only [List.mem_cons, List.mem_nil_iff, or_false] at hop
  rcases hop with rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- and none after it. -/
theorem not_written1 (b : Ref sig .tc) (hb : b ≠ main_cst ∧ b ≠ main_v8 ∧ b ≠ main_cst_0 ∧ b ≠ main_v9 ∧ b ≠ main_v10 ∧ b ≠ main_v11 ∧ b ≠ main_v12
      ∧ b ≠ main_v13 ∧ b ≠ main_v14 ∧ b ≠ main_cst_1 ∧ b ≠ main_v15 ∧ b ≠ main_v16 ∧ b ≠ main_v17 ∧ b ≠ main_v18) :
    ∀ op ∈ (hostOps1 (F := F)), Proc.devRef .tc b ∉ op.writes := by
  obtain ⟨h0, h1, h2, h3, h4, h5, h6, h7, h8, h9, h10, h11, h12, h13⟩ := hb
  intro op hop
  simp only [List.mem_cons, List.mem_nil_iff, or_false] at hop
  rcases hop with rfl | rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- Core `c`'s buffers when @main returns. -/
abbrev V₃ (c : Dev nD) : Valuation τ sig (Elt F) := StableHlo.after hostOps1 (V₂ m c)

/-- An argument array ends as launched: no host line writes it, and the region only reads its inputs. -/
theorem V₃_arg (c : Dev nD) (b : Ref sig .tc)
    (h0 : b ≠ main_v0 ∧ b ≠ main_v1 ∧ b ≠ main_v2 ∧ b ≠ main_v3 ∧ b ≠ main_v4 ∧ b ≠ main_v5 ∧ b ≠ main_v6) (h7 : b ≠ main_v7)
    (h1 : b ≠ main_cst ∧ b ≠ main_v8 ∧ b ≠ main_cst_0 ∧ b ≠ main_v9 ∧ b ≠ main_v10 ∧ b ≠ main_v11 ∧ b ≠ main_v12
      ∧ b ≠ main_v13 ∧ b ≠ main_v14 ∧ b ≠ main_cst_1 ∧ b ≠ main_v15 ∧ b ≠ main_v16 ∧ b ≠ main_v17 ∧ b ≠ main_v18) :
    V₃ m c (Proc.devRef .tc b) = m ((c : Thread nD τ).loc b) :=
  (StableHlo.after_of_forall_not_mem (b := Proc.devRef .tc b) hostOps1 (V₂ m c) (not_written1 b h1)).trans
    ((V₂_of_ne m c b h7).trans (StableHlo.after_of_forall_not_mem (b := Proc.devRef .tc b) hostOps0 (V₀ m c) (not_written0 b h0)))

/-- What every final state holds: the result array at the last host lines' value, the six argument arrays as launched. -/
def QC : PUnit × MemSt nD τ sig (Elt F) → Prop := fun r =>
  ∀ c : Dev nD, r.2.mem ((c : Thread nD τ).loc main_v18) = V₃ m c (Proc.devRef .tc main_v18)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)

set_option backward.isDefEq.respectTransparency.types false in
/-- At the compiled mesh, for any float values, from any memory with zero counters: every weakly fair execution of
    @main on the TensorCores terminates, and every final state satisfies `QC`. -/
theorem run_main : θ_run defs (onTc (τ := τ) (main (F := F))) (s₀ m ρ) (QC m) :=
  Pipeline.θ_run_regions_kit (pcfgs (F := F)) adm (dats m) () cellOf_inj EP defs₀ 𝒱₀ L lv m ρ main
    [.host (seg0 m), .region (reg0 m), .host (seg1 m)]
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (V₃ m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v18) = V₃ m c (Proc.devRef .tc main_v18)
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4)
      ∧ s.mem ((c : Thread nD τ).loc main_arg5) = m ((c : Thread nD τ).loc main_arg5))
    (hfin := fun c s' => by
      rw [show StableHlo.held (c : Thread nD τ) (Pipeline.ucRefs τ sig) (V₃ m c) = unscopedBufs c (fun b => V₃ m c (Proc.devRef .tc b)) from (Pipeline.unscopedBufs_held c _).symm]
      unfold unscopedBufs
      have hread := pointsTo_read_all (Ix := Unit) (Name := ℕ) (U := UR sig nD τ) (Lvl := ℕ) (Finset.univ.filter fun b : Ref sig .tc => ¬ b.isScoped) (fun b => (c : Thread nD τ).loc b) (fun b => V₃ m c (Proc.devRef .tc b)) s'
      iintro ⟨Hh, HSI⟩
      ihave Hr := hread $$ [Hh HSI]
      · isplitl [Hh] <;> iassumption
      icases Hr with ⟨%hr, HSI⟩
      imodintro
      isplitr; swap; (· iexact HSI)
      ipureintro
      refine ⟨hr main_v18 (by decide), ?_, ?_, ?_, ?_, ?_, ?_⟩
      · exact (hr main_arg0 (by decide)).trans (V₃_arg m c main_arg0 (by decide) (by decide) (by decide))
      · exact (hr main_arg1 (by decide)).trans (V₃_arg m c main_arg1 (by decide) (by decide) (by decide))
      · exact (hr main_arg2 (by decide)).trans (V₃_arg m c main_arg2 (by decide) (by decide) (by decide))
      · exact (hr main_arg3 (by decide)).trans (V₃_arg m c main_arg3 (by decide) (by decide) (by decide))
      · exact (hr main_arg4 (by decide)).trans (V₃_arg m c main_arg4 (by decide) (by decide) (by decide))
      · exact (hr main_arg5 (by decide)).trans (V₃_arg m c main_arg5 (by decide) (by decide) (by decide)))
    (hQ := fun _ h => h)

end Cert.KernelIdeal.Hand

end
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.LibOuterLayout.lean ====
/-
  Layout operations and reductions of an OUTER-PRODUCT body, read at coordinates.

  A body that multiplies every entry of one row by every entry of another builds an `[a, b, n]` array from two
  matrices: the first, `[a, b]`, is given a trailing unit axis and spread along the last axis; the second, `[a, n]`,
  is given a MIDDLE unit axis and spread along the middle axis. It then sums the product along one of the two
  trailing axes, and takes a row's maximum for a softmax. None of these computes anything but the sums and the
  maximum; the lemmas name, by coordinates, which entries each result reads:
    • `[a, n] → [a, 1, n]` (a shape cast): entry `(r, u, k)` is entry `(r, k)`, whatever the unit coordinate;
    • `[a, 1, n] → [a, b, n]` (a broadcast): entry `(r, s, k)` is entry `(r, 0, k)`;
    • their composite: `(r, s, k)` reads the matrix at `(r, k)`;
    • a sum along the LAST axis of an `[a, b, n]` array of extended reals: entry `(r, s)` is `∑ₖ` of `(r, s, k)`;
    • a sum along the MIDDLE axis: entry `(r, k)` is `∑ₛ` of `(r, s, k)`;
    • a maximum along the second axis of an `[a, b]` array, from the accumulator's value: entry `r` is the fold of
      `max` over `j` of the entries `(r, j)` — for a vector reduction and for the host's one-operand reduce alike.
  The trailing-unit-axis forms (`[a, b] → [a, b, 1] → [a, b, n]`) and the column forms are in their own files.
-/
import Idealize.ShloMosaic.Lib.Pipeline.Value
import Idealize.ShloMosaic.Lib.ValueIdx
import Idealize.ShloMosaic.PureOps.Ideal.Laws

namespace Cert.OuterLayout

open Idealize.ShloMosaic Idealize.ShloMosaic.ValueIdx

variable {α : Type}

/-- An `[a, n]` array cast to `[a, 1, n]` reads, at `(r, u, k)`, the operand at `(r, k)`: the two indices have the same
    row-major position, `(r·1 + u)·n + k = r·n + k` since `u = 0`. -/
theorem shapeCast_an_a1n_apply {a n : ℕ} (x : (⟨2, ![a, n]⟩ : Shape).Idx → α)
    (h : (⟨2, ![a, n]⟩ : Shape).ShapeCasts ⟨3, ![a, 1, n]⟩) (r : Fin a) (u : Fin 1) (k : Fin n) :
    shapeCast ⟨3, ![a, 1, n]⟩ x h (ix3 r u k) = x (ix2 r k) :=
  shapeCast_apply x h _ _ (by
    have hu : u.val = 0 := by omega
    rw [Shape.rowMajor_val_two, Shape.rowMajor_val_three]
    show r.val * n + k.val = (r.val * 1 + u.val) * n + k.val
    rw [hu, Nat.mul_one, Nat.add_zero])

/-- An `[a, 1, n]` array broadcast to `[a, b, n]` reads, at `(r, s, k)`, the operand at `(r, 0, k)`. -/
theorem broadcastTo_a1n_abn_apply {a b n : ℕ} (y : (⟨3, ![a, 1, n]⟩ : Shape).Idx → α)
    (h : (⟨3, ![a, 1, n]⟩ : Shape).Broadcasts ⟨3, ![a, b, n]⟩) (r : Fin a) (s : Fin b) (k : Fin n) :
    broadcastTo ⟨3, ![a, b, n]⟩ y h (ix3 r s k) = y (ix3 r (0 : Fin 1) k) := by
  refine broadcastTo_apply y h (ix3 r s k) (ix3 r (0 : Fin 1) k) fun ax => ?_
  match ax with
  | ⟨0, _⟩ =>
    show r.val = if a = 1 then 0 else r.val
    split
    · have := r.isLt; omega
    · rfl
  | ⟨1, _⟩ => rfl
  | ⟨2, _⟩ =>
    show k.val = if n = 1 then 0 else k.val
    split
    · have := k.isLt; omega
    · rfl

/-- An `[a, n]` matrix given a middle unit axis and broadcast along it: `(r, s, k)` reads the matrix at `(r, k)`. -/
theorem middle_apply {a b n : ℕ} (x : (⟨2, ![a, n]⟩ : Shape).Idx → α)
    (hc : (⟨2, ![a, n]⟩ : Shape).ShapeCasts ⟨3, ![a, 1, n]⟩) (hb : (⟨3, ![a, 1, n]⟩ : Shape).Broadcasts ⟨3, ![a, b, n]⟩)
    (r : Fin a) (s : Fin b) (k : Fin n) :
    broadcastTo ⟨3, ![a, b, n]⟩ (shapeCast ⟨3, ![a, 1, n]⟩ x hc) hb (ix3 r s k) = x (ix2 r k) :=
  (broadcastTo_a1n_abn_apply _ hb r s k).trans (shapeCast_an_a1n_apply x hc r 0 k)

/-- A sum along the last axis of an `[a, b, n]` array of extended reals, from the zero accumulator, reads at `(r, s)`
    the sum over `k` of the entries `(r, s, k)`. The last hypothesis says that the accumulator's word, zero, is the
    neutral word of addition. -/
theorem sumLast_apply {a b n : ℕ} (src : FVec Ideal ⟨3, ![a, b, n]⟩ .f32)
    (h : (⟨3, ![a, b, n]⟩ : Shape).Reduces [2] ⟨2, ![a, b]⟩) (hφ : FKind.Formats .f32)
    (hacc : (0x00000000#32 : BitVec 32) = FKind.add.neutral .f32 hφ) (r : Fin a) (s : Fin b) :
    multiReduction .add [2] ⟨2, ![a, b]⟩ src 0x00000000#32 h hφ hacc (ix2 r s) = ∑ k : Fin n, src (ix3 r s k) := by
  refine (Ideal.multiReduction_add_single src 0x00000000#32 h hφ hacc (ix2 r s)).trans ?_
  show ∑ k : Fin n, src (h.lift (ix2 r s) k) = ∑ k : Fin n, src (ix3 r s k)
  refine Finset.sum_congr rfl fun k _ => congrArg src (funext fun c => Fin.ext ?_)
  match c with
  | ⟨0, _⟩ => rfl
  | ⟨1, _⟩ => rfl
  | ⟨2, _⟩ => rfl

/-- A sum along the middle axis of an `[a, b, n]` array of extended reals, from the zero accumulator, reads at `(r, k)`
    the sum over `s` of the entries `(r, s, k)`. -/
theorem sumMiddle_apply {a b n : ℕ} (src : FVec Ideal ⟨3, ![a, b, n]⟩ .f32)
    (h : (⟨3, ![a, b, n]⟩ : Shape).Reduces [1] ⟨2, ![a, n]⟩) (hφ : FKind.Formats .f32)
    (hacc : (0x00000000#32 : BitVec 32) = FKind.add.neutral .f32 hφ) (r : Fin a) (k : Fin n) :
    multiReduction .add [1] ⟨2, ![a, n]⟩ src 0x00000000#32 h hφ hacc (ix2 r k) = ∑ s : Fin b, src (ix3 r s k) := by
  refine (Ideal.multiReduction_add_single src 0x00000000#32 h hφ hacc (ix2 r k)).trans ?_
  show ∑ s : Fin b, src (h.lift (ix2 r k) s) = ∑ s : Fin b, src (ix3 r s k)
  refine Finset.sum_congr rfl fun s _ => congrArg src (funext fun c => Fin.ext ?_)
  match c with
  | ⟨0, _⟩ => rfl
  | ⟨1, _⟩ => rfl
  | ⟨2, _⟩ => rfl

/-- A maximum along the second axis of an `[a, b]` array of extended reals reads, at `r`, the fold of `max`, from the
    value the accumulator's word denotes, over `j` of the entries `(r, j)`. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun j => src (ix2 r j)) := by
  refine (Ideal.multiReduction_maximumf_single src acc h hφ hacc (ix1 r)).trans ?_
  show (Finset.univ : Finset (Fin b)).fold max (Ideal.ofBits .f32 acc) (src ∘ h.lift (ix1 r)) = _
  refine congrArg (fun f => Finset.fold max (Ideal.ofBits .f32 acc) f (Finset.univ : Finset (Fin b)))
    (funext fun j => congrArg src (funext fun c => Fin.ext ?_))
  match c with
  | ⟨0, _⟩ => rfl
  | ⟨1, _⟩ => rfl

/-- The host's one-operand reduce with a maximum body along the second axis of an `[a, b]` array of extended reals
    reads, at `r`, the fold of `max`, from the initial value's one element, over `j` of the entries `(r, j)`: the same
    fold as the vector reduction's. -/
theorem hostRowMax_apply {a b : ℕ} {u : Shape} (x : (⟨2, ![a, b]⟩ : Shape).Idx → Ideal .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce FloatOps.maximumf x init h' hu (ix1 r)
      = (Finset.univ : Finset (Fin b)).fold max (init (Shape.Idx.first hu)) (fun j => x (ix2 r j)) := by
  refine (Host.reduce_eq_fold_single FloatOps.maximumf x init h' h hu (ix1 r)).trans ?_
  show (Finset.univ : Finset (Fin b)).fold max (init (Shape.Idx.first hu)) (x ∘ h.lift (ix1 r)) = _
  refine congrArg (fun f => Finset.fold max (init (Shape.Idx.first hu)) f (Finset.univ : Finset (Fin b)))
    (funext fun j => congrArg x (funext fun c => Fin.ext ?_))
  match c with
  | ⟨0, _⟩ => rfl
  | ⟨1, _⟩ => rfl

end Cert.OuterLayout
-- ==== Proof.LibLeadingAxisLayout.lean ====
/-
  Layout operations that add a LEADING unit axis and spread along it, read at coordinates, at every extent:

  • a stack of one matrix spread along the leading axis, `[1, b, n] → [a, b, n]`: entry `(r, s, k)` is entry
    `(0, s, k)` of the operand (`broadcastTo_1bn_abn_apply`);
  • a vector laid as one row and spread over `m` rows, `[n] → [1, n] → [m, n]`: entry `(j, v)` is the vector's
    entry `v` (`rows_apply`) — a bias added to every row of a matrix.

  Each is the library's `broadcastTo_apply` (a unit axis reads coordinate `0`) or its rank-2 forms composed, with
  both indices written by coordinates.
-/
import Idealize.ShloMosaic.Lib.Pipeline.Value
import Idealize.ShloMosaic.Lib.ValueIdx
import Idealize.ShloMosaic.Lib.ValueLayout

namespace Cert.LeadingAxisLayout

open Idealize.ShloMosaic Idealize.ShloMosaic.ValueIdx

variable {α : Type}

/-- A `[1, b, n]` array broadcast to `[a, b, n]` reads, at `(r, s, k)`, the operand at `(0, s, k)`. -/
theorem broadcastTo_1bn_abn_apply {a b n : ℕ} (y : (⟨3, ![1, b, n]⟩ : Shape).Idx → α)
    (h : (⟨3, ![1, b, n]⟩ : Shape).Broadcasts ⟨3, ![a, b, n]⟩) (r : Fin a) (s : Fin b) (k : Fin n) :
    broadcastTo ⟨3, ![a, b, n]⟩ y h (ix3 r s k) = y (ix3 (0 : Fin 1) s k) := by
  refine broadcastTo_apply y h (ix3 r s k) (ix3 (0 : Fin 1) s k) fun ax => ?_
  match ax with
  | ⟨0, _⟩ => rfl
  | ⟨1, _⟩ =>
    show s.val = if b = 1 then 0 else s.val
    split
    · have := s.isLt; omega
    · rfl
  | ⟨2, _⟩ =>
    show k.val = if n = 1 then 0 else k.val
    split
    · have := k.isLt; omega
    · rfl

/-- A vector laid as one row and spread over `m` rows reads, at `(j, v)`, the vector at `v`. -/
theorem rows_apply {m n : ℕ} (q : (⟨1, ![n]⟩ : Shape).Idx → α) (hc : (⟨1, ![n]⟩ : Shape).ShapeCasts ⟨2, ![1, n]⟩)
    (hb : (⟨2, ![1, n]⟩ : Shape).Broadcasts ⟨2, ![m, n]⟩) (j : Fin m) (v : Fin n) :
    broadcastTo ⟨2, ![m, n]⟩ (shapeCast ⟨2, ![1, n]⟩ q hc) hb (ix2 j v) = q (ix1 v) :=
  (broadcastTo_1b_ab_apply _ hb j v).trans (shapeCast_a_1a_apply q hc 0 v)

end Cert.LeadingAxisLayout
-- ==== Proof.LibRank3Layout.lean ====
/-
  Rank-3 layout operations read at coordinates — the forms a body meets when it compares every entry of an `[a, b]`
  block with every entry of a length-`n` vector and then flattens the two leading axes for a matrix product:

  • a TRAILING unit axis added by a shape cast, `[a, b] → [a, b, 1]` (`shapeCast_ab_ab1_apply`);
  • a vector laid along the LAST axis by a shape cast, `[n] → [1, 1, n]` (`shapeCast_n_11n_apply`);
  • the broadcast of the first along the last axis, `[a, b, 1] → [a, b, n]` (`broadcastTo_ab1_abn_apply`), and of the
    second along the two leading axes, `[1, 1, n] → [a, b, n]` (`broadcastTo_11n_abn_apply`);
  • the two composites, which read `(r, s, k)` at `(r, s)` of the block (`column_apply`) and at `k` of the vector
    (`row_apply`);
  • the two leading axes MERGED, `[a, b, n] → [m, n]` with `m = a·b`, and SPLIT again, `[m, d] → [a, b, d]`: row
    `j = r·b + s` of the flat array is row `(r, s)` of the stacked one (`shapeCast_abn_mn_apply`,
    `shapeCast_md_abd_apply`; the flat row is passed with the equation `j = r·b + s`, so that a literal extent such
    as `4096` need not be recognised as a product).

  Each is the library's `shapeCast_apply` (equal row-major positions) or `broadcastTo_apply` (a unit axis reads
  coordinate `0`) with both indices written by coordinates, at every extent.
-/
import Idealize.ShloMosaic.Lib.Pipeline.Value
import Idealize.ShloMosaic.Lib.ValueIdx

namespace Cert.Rank3Layout

open Idealize.ShloMosaic Idealize.ShloMosaic.ValueIdx

variable {α : Type}

/-- An `[a, b]` array cast to `[a, b, 1]` reads, at `(r, s, u)`, the operand at `(r, s)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (r : Fin a) (s : Fin b) (u : Fin 1) :
    shapeCast ⟨3, ![a, b, 1]⟩ x h (ix3 r s u) = x (ix2 r s) :=
  shapeCast_apply x h _ _ (by
    have hu : u.val = 0 := by omega
    rw [Shape.rowMajor_val_two, Shape.rowMajor_val_three]
    show r.val * b + s.val = (r.val * b + s.val) * 1 + u.val
    rw [hu, Nat.mul_one, Nat.add_zero])

/-- An `[n]` vector cast to `[1, 1, n]` reads, at `(u, u', k)`, the operand at `k`, whatever the unit coordinates. -/
theorem shapeCast_n_11n_apply {n : ℕ} (q : (⟨1, ![n]⟩ : Shape).Idx → α)
    (h : (⟨1, ![n]⟩ : Shape).ShapeCasts ⟨3, ![1, 1, n]⟩) (u u' : Fin 1) (k : Fin n) :
    shapeCast ⟨3, ![1, 1, n]⟩ q h (ix3 u u' k) = q (ix1 k) :=
  shapeCast_apply q h _ _ (by
    have hu : u.val = 0 := by omega
    have hu' : u'.val = 0 := by omega
    rw [Shape.rowMajor_val_one, Shape.rowMajor_val_three]
    show k.val = (u.val * 1 + u'.val) * n + k.val
    rw [hu, hu']; simp)

/-- An `[a, b, 1]` array broadcast to `[a, b, n]` reads, at `(r, s, k)`, the operand at `(r, s, 0)`. -/
theorem broadcastTo_ab1_abn_apply {a b n : ℕ} (y : (⟨3, ![a, b, 1]⟩ : Shape).Idx → α)
    (h : (⟨3, ![a, b, 1]⟩ : Shape).Broadcasts ⟨3, ![a, b, n]⟩) (r : Fin a) (s : Fin b) (k : Fin n) :
    broadcastTo ⟨3, ![a, b, n]⟩ y h (ix3 r s k) = y (ix3 r s (0 : Fin 1)) := by
  refine broadcastTo_apply y h (ix3 r s k) (ix3 r s (0 : Fin 1)) fun ax => ?_
  match ax with
  | ⟨0, _⟩ =>
    show r.val = if a = 1 then 0 else r.val
    split
    · have := r.isLt; omega
    · rfl
  | ⟨1, _⟩ =>
    show s.val = if b = 1 then 0 else s.val
    split
    · have := s.isLt; omega
    · rfl
  | ⟨2, _⟩ => rfl

/-- A `[1, 1, n]` array broadcast to `[a, b, n]` reads, at `(r, s, k)`, the operand at `(0, 0, k)`. -/
theorem broadcastTo_11n_abn_apply {a b n : ℕ} (q : (⟨3, ![1, 1, n]⟩ : Shape).Idx → α)
    (h : (⟨3, ![1, 1, n]⟩ : Shape).Broadcasts ⟨3, ![a, b, n]⟩) (r : Fin a) (s : Fin b) (k : Fin n) :
    broadcastTo ⟨3, ![a, b, n]⟩ q h (ix3 r s k) = q (ix3 (0 : Fin 1) (0 : Fin 1) k) := by
  refine broadcastTo_apply q h (ix3 r s k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

/-- An `[a, b]` block given a trailing unit axis and broadcast along it: `(r, s, k)` reads the block at `(r, s)`. -/
theorem column_apply {a b n : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, n]⟩)
    (r : Fin a) (s : Fin b) (k : Fin n) :
    broadcastTo ⟨3, ![a, b, n]⟩ (shapeCast ⟨3, ![a, b, 1]⟩ x hc) hb (ix3 r s k) = x (ix2 r s) :=
  (broadcastTo_ab1_abn_apply _ hb r s k).trans (shapeCast_ab_ab1_apply x hc r s 0)

/-- A length-`n` vector laid along the last axis and broadcast over the two leading ones: `(r, s, k)` reads it at `k`. -/
theorem row_apply {a b n : ℕ} (q : (⟨1, ![n]⟩ : Shape).Idx → α)
    (hc : (⟨1, ![n]⟩ : Shape).ShapeCasts ⟨3, ![1, 1, n]⟩) (hb : (⟨3, ![1, 1, n]⟩ : Shape).Broadcasts ⟨3, ![a, b, n]⟩)
    (r : Fin a) (s : Fin b) (k : Fin n) :
    broadcastTo ⟨3, ![a, b, n]⟩ (shapeCast ⟨3, ![1, 1, n]⟩ q hc) hb (ix3 r s k) = q (ix1 k) :=
  (broadcastTo_11n_abn_apply _ hb r s k).trans (shapeCast_n_11n_apply q hc 0 0 k)

/-- The two leading axes merged: an `[a, b, n]` array cast to `[m, n]` reads, at `(j, k)` with `j = r·b + s`, the
    operand at `(r, s, k)`. -/
theorem shapeCast_abn_mn_apply {a b n m : ℕ} (w : (⟨3, ![a, b, n]⟩ : Shape).Idx → α)
    (h : (⟨3, ![a, b, n]⟩ : Shape).ShapeCasts ⟨2, ![m, n]⟩) (r : Fin a) (s : Fin b) (k : Fin n) (j : Fin m)
    (hj : j.val = r.val * b + s.val) :
    shapeCast ⟨2, ![m, n]⟩ w h (ix2 j k) = w (ix3 r s k) :=
  shapeCast_apply w h _ _ (by
    rw [Shape.rowMajor_val_three, Shape.rowMajor_val_two]
    show (r.val * b + s.val) * n + k.val = j.val * n + k.val
    rw [hj])

/-- The leading axis split in two: an `[m, d]` array cast to `[a, b, d]` reads, at `(r, s, e)`, the operand at `(j, e)`
    with `j = r·b + s`. -/
theorem shapeCast_md_abd_apply {a b d m : ℕ} (z : (⟨2, ![m, d]⟩ : Shape).Idx → α)
    (h : (⟨2, ![m, d]⟩ : Shape).ShapeCasts ⟨3, ![a, b, d]⟩) (r : Fin a) (s : Fin b) (e : Fin d) (j : Fin m)
    (hj : j.val = r.val * b + s.val) :
    shapeCast ⟨3, ![a, b, d]⟩ z h (ix3 r s e) = z (ix2 j e) :=
  shapeCast_apply z h _ _ (by
    rw [Shape.rowMajor_val_two, Shape.rowMajor_val_three]
    show j.val * d + e.val = (r.val * b + s.val) * d + e.val
    rw [hj])

end Cert.Rank3Layout
-- ==== Proof.KiTile.lean ====
/-
  One tile of energies in closed form, on the extended reals. The body's one store holds, at row `p` of the tile and
  column `q`,

      Σ_h tanh( Σ_k x0(0,p,k)·x2(k,h) + Σ_k x1(0,q,k)·x3(k,h) + x4(0,h) ) · x5(0,h)  +  x6(0,0):

  the first product is the tile's 32 rows times the first weight half, spread along the middle axis; the second is
  the batch's 256 rows times the second half, spread along the leading axis; the bias row and the score row are
  spread over both leading axes; the last axis is summed; the score bias is added to every entry. A change of float
  format is the identity on the extended reals, and a matrix product into the zero matrix is the plain sum.
-/
import proofs.«117276_j41781441856090_1_alg».proof.Proof.KiBody
import proofs.«117276_j41781441856090_1_alg».proof.Proof.LibPlainMatmul
import proofs.«117276_j41781441856090_1_alg».proof.Proof.LibOuterLayout
import proofs.«117276_j41781441856090_1_alg».proof.Proof.LibLeadingAxisLayout
import proofs.«117276_j41781441856090_1_alg».proof.Proof.LibRank3Layout
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx

/-- One tile of energies, entry by entry. -/
def tileSpec (x0 : Vec Ideal S1x32x256 .f32) (x1 : Vec Ideal S1x256x256 .f32) (x2 x3 : Vec Ideal S256x256 .f32) (x4 x5 : Vec Ideal S1x256 .f32)
    (x6 : Vec Ideal S1x1 .f32) (p : Fin 32) (q : Fin 256) : EReal :=
  (∑ h : Fin 256, Ideal.tanh ((∑ k : Fin 256, x0 (ix3 (0 : Fin 1) p k) * x2 (ix2 k h)) + (∑ k : Fin 256, x1 (ix3 (0 : Fin 1) q k) * x3 (ix2 k h)) + x4 (ix2 (0 : Fin 1) h)) * x5 (ix2 (0 : Fin 1) h))
    + x6 (ix2 (0 : Fin 1) (0 : Fin 1))

theorem hz3 : (![0, 0, 0] : Fin 3 → Nat) = fun _ => 0 := funext fun a => by fin_cases a <;> rfl
theorem hz2 : (![0, 0] : Fin 2 → Nat) = fun _ => 0 := funext fun a => by fin_cases a <;> rfl

/-- The tile's rows times the first weight half, spread along the middle axis: `(p, q, h)` reads `Σ_k x0(0,p,k)·x2(k,h)`. -/
theorem rowsTerm_apply (x0 : Vec Ideal S1x32x256 .f32) (x2 : Vec Ideal S256x256 .f32) (p : Fin 32) (q : Fin 256) (h : Fin 256) :
    broadcastTo S32x256x256 (shapeCast S32x1x256
        (matmul (F := Ideal) dot_S32x256_S256x256_S32x256_1_0_0_1_n_n none
          (truncf (F := Ideal) FTy.bf16 (shapeCast S32x256 x0 shapeCasts_S1x32x256_S32x256) bitsLt_bf16_f32)
          (truncf (F := Ideal) FTy.bf16 (shapeCast S256x256 x2 shapeCasts_S256x256_S256x256) bitsLt_bf16_f32)
          (constant (F := Ideal) S32x256 FTy.f32 0#32))
        shapeCasts_S32x256_S32x1x256) broadcasts_S32x1x256_S32x256x256 (ix3 p q h)
      = ∑ k : Fin 256, x0 (ix3 (0 : Fin 1) p k) * x2 (ix2 k h) := by
  refine (Cert.OuterLayout.middle_apply _ _ _ p q h).trans ?_
  refine (Cert.PlainMatmul.plain_apply (M := 32) (K := 256) (N := 256) _ _ p h).trans ?_
  refine Finset.sum_congr rfl fun k _ => congrArg₂ (· * ·) ?_ ?_
  · exact shapeCast_1ab_ab_apply x0 shapeCasts_S1x32x256_S32x256 p k
  · exact congrFun (shapeCast_self x2 shapeCasts_S256x256_S256x256) (ix2 k h)

/-- The batch's rows times the second weight half, spread along the leading axis: `(p, q, h)` reads `Σ_k x1(0,q,k)·x3(k,h)`. -/
theorem batchTerm_apply (x1 : Vec Ideal S1x256x256 .f32) (x3 : Vec Ideal S256x256 .f32) (p : Fin 32) (q : Fin 256) (h : Fin 256) :
    broadcastTo S32x256x256 (shapeCast S1x256x256
        (matmul (F := Ideal) dot_S256x256_S256x256_S256x256_1_0_0_1_n_n none
          (truncf (F := Ideal) FTy.bf16 (shapeCast S256x256 x1 shapeCasts_S1x256x256_S256x256) bitsLt_bf16_f32)
          (truncf (F := Ideal) FTy.bf16 (shapeCast S256x256 x3 shapeCasts_S256x256_S256x256) bitsLt_bf16_f32)
          (constant (F := Ideal) S256x256 FTy.f32 0#32))
        shapeCasts_S256x256_S1x256x256) broadcasts_S1x256x256_S32x256x256 (ix3 p q h)
      = ∑ k : Fin 256, x1 (ix3 (0 : Fin 1) q k) * x3 (ix2 k h) := by
  refine (Cert.LeadingAxisLayout.broadcastTo_1bn_abn_apply _ _ p q h).trans ?_
  refine (shapeCast_ab_1ab_apply _ shapeCasts_S256x256_S1x256x256 (0 : Fin 1) q h).trans ?_
  refine (Cert.PlainMatmul.plain_apply (M := 256) (K := 256) (N := 256) _ _ q h).trans ?_
  refine Finset.sum_congr rfl fun k _ => congrArg₂ (· * ·) ?_ ?_
  · exact shapeCast_1ab_ab_apply x1 shapeCasts_S1x256x256_S256x256 q k
  · exact congrFun (shapeCast_self x3 shapeCasts_S256x256_S256x256) (ix2 k h)

/-- A row `[1, 256]` laid along the last axis and spread over the two leading ones: `(p, q, h)` reads the row at `h`. -/
theorem rowSpread3_apply (x : Vec Ideal S1x256 .f32) (p : Fin 32) (q : Fin 256) (h : Fin 256) :
    broadcastTo S32x256x256 (shapeCast S1x1x256 x shapeCasts_S1x256_S1x1x256) broadcasts_S1x1x256_S32x256x256 (ix3 p q h)
      = x (ix2 (0 : Fin 1) h) := by
  refine (Cert.Rank3Layout.broadcastTo_11n_abn_apply _ _ p q h).trans ?_
  exact shapeCast_ab_1ab_apply x shapeCasts_S1x256_S1x1x256 (0 : Fin 1) (0 : Fin 1) h

/-- The body's store, entry by entry. -/
theorem outTile_apply (x0 : Vec Ideal S1x32x256 .f32) (x1 : Vec Ideal S1x256x256 .f32) (x2 x3 : Vec Ideal S256x256 .f32) (x4 x5 : Vec Ideal S1x256 .f32)
    (x6 : Vec Ideal S1x1 .f32) (z : Fin 1) (p : Fin 32) (q : Fin 256) :
    outTile (F := Ideal) x0 x1 x2 x3 x4 x5 x6 (ix3 z p q) = tileSpec x0 x1 x2 x3 x4 x5 x6 p q := by
  unfold outTile
  rw [View.canon_unit_zero hz3]
  simp only [View.ld_unit_zero (S := S1x32x256) hz3, View.ld_unit_zero (S := S1x256x256) hz3, View.ld_unit_zero (S := S256x256) hz2,
    View.ld_unit_zero (S := S1x256) hz2, View.ld_unit_zero (S := S1x1) hz2]
  unfold k0_pay1
  refine (shapeCast_ab_1ab_apply _ _ z p q).trans ?_
  unfold k0_pay2 tileSpec
  refine congrArg₂ (· + ·) ?_ (show x6 _ = x6 _ from congrArg x6 (funext fun a => Fin.ext (by
    match a with
    | ⟨0, _⟩ => rfl
    | ⟨1, _⟩ => rfl)))
  refine (Cert.OuterLayout.sumLast_apply _ _ _ _ p q).trans (Finset.sum_congr rfl fun h _ => ?_)
  refine congrArg₂ (· * ·) (congrArg Ideal.tanh (congrArg₂ (· + ·) (congrArg₂ (· + ·) ?_ ?_) ?_)) ?_
  · exact rowsTerm_apply x0 x2 p q h
  · exact batchTerm_apply x1 x3 p q h
  · refine (rowSpread3_apply _ p q h).trans ?_
    exact congrFun (shapeCast_self x4 shapeCasts_S1x256_S1x256) (ix2 (0 : Fin 1) h)
  · exact rowSpread3_apply x5 p q h

end Cert.KernelIdeal.Hand

end
-- ==== Proof.KiFinal.lean ====
/-
  From tiles to the array. Grid point `t = (b, i)` writes back rows `32·i … 32·i + 31` of batch `b` of the energies;
  the 64 points' tiles fill the 8 x 256 x 256 array. Row `r` of batch `b` depends on row `r` of that batch's hidden
  states through the first weight half, and column `s` on row `s` of the same batch through the second, so every tile
  is the restriction of ONE function of the arrays the region is handed, and the array ends holding that function.
-/
import proofs.«117276_j41781441856090_1_alg».proof.Proof.KiRun
import proofs.«117276_j41781441856090_1_alg».proof.Proof.KiTile

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The energies as one function of the arrays the region is handed: hidden states `H` (batch first), the two
    transposed weight halves, the bias row, the score row, the score bias. -/
def energySpec (H : S8x256x256.Idx → EReal) (W1 W2 : S256x256.Idx → EReal) (bA wS : S1x256.Idx → EReal) (bS : S1x1.Idx → EReal)
    (i : S8x256x256.Idx) : EReal :=
  (∑ h : Fin 256, Ideal.tanh ((∑ k : Fin 256, H (ix3 (⟨(i 0).val, (i 0).isLt⟩ : Fin 8) (⟨(i 1).val, (i 1).isLt⟩ : Fin 256) k) * W1 (ix2 k h))
      + (∑ k : Fin 256, H (ix3 (⟨(i 0).val, (i 0).isLt⟩ : Fin 8) (⟨(i 2).val, (i 2).isLt⟩ : Fin 256) k) * W2 (ix2 k h))
      + bA (ix2 (0 : Fin 1) h)) * wS (ix2 (0 : Fin 1) h))
    + bS (ix2 (0 : Fin 1) (0 : Fin 1))

/-- The printed index maps, decided over the grid: the tile window moves with the output window; the batch window
    follows its leading axis only; the five resident windows stay at block 0; the output's block indices stay in range. -/
theorem idx_facts : ∀ t : Fin cfg0.N,
    win0_0.index t (0 : Fin 3) = win0_7.index t (0 : Fin 3) ∧ win0_0.index t (1 : Fin 3) = win0_7.index t (1 : Fin 3) ∧ win0_0.index t (2 : Fin 3) = 0
    ∧ win0_1.index t (0 : Fin 3) = win0_7.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (2 : Fin 3) = 0 ∧ win0_7.index t (0 : Fin 3) ≤ 7 ∧ win0_7.index t (1 : Fin 3) ≤ 7 :=
  (by decide +kernel : ∀ t : Fin grid0.N, _)

/-- Every tile of the array is some point's. -/
theorem idx_onto : ∀ (q0 : Fin 8) (q1 : Fin 8), ∃ t : Fin cfg0.N, win0_7.index t = ![q0.val, q1.val, 0] :=
  (by decide +kernel : ∀ (q0 : Fin 8) (q1 : Fin 8), ∃ t : Fin grid0.N, win0_7.index t = ![q0.val, q1.val, 0])

/-- What point `t` writes back is block `t` of the energies of the arrays the region is handed. -/
theorem flushed_eq (c : Dev nD) (t : Fin cfg0.N) :
    (dats m 0 c).flushed 7 t = ((cfg0.win 7).blk t).view.read (Elt Ideal)
      (energySpec (V m c main_v0) (V m c main_v3) (V m c main_v4) (V m c main_v5) (V m c main_arg4) (V m c main_v6)) := by
  show (cfg0.win 7).cut (grid0.coords t) ((dats m 0 c).after 7 t) = _
  rw [after7]
  funext y
  obtain ⟨z, p, q, rfl⟩ : ∃ (z : Fin 1) (p : Fin 32) (q : Fin 256), y = ix3 z p q := ⟨y 0, y 1, y 2, eq_ix3 y⟩
  refine (outTile_apply _ _ _ _ _ _ _ z p q).trans ?_
  obtain ⟨e00, e01, e02, e10, e11, e12, e20, e21, e30, e31, e40, e41, e50, e51, e60, e61, e72, b70, b71⟩ := idx_facts t
  show tileSpec (iblk m c 0 t) (iblk m c 1 t) (iblk m c 2 t) (iblk m c 3 t) (iblk m c 4 t) (iblk m c 5 t) (iblk m c 6 t) p q
    = energySpec (V m c main_v0) (V m c main_v3) (V m c main_v4) (V m c main_v5) (V m c main_arg4) (V m c main_v6) (((cfg0.win 7).blk t).view.emb (ix3 z p q))
  unfold tileSpec energySpec
  have hz : z.val = 0 := by omega
  refine congrArg₂ (· + ·) (Finset.sum_congr rfl fun h _ => congrArg₂ (· * ·) (congrArg Ideal.tanh (congrArg₂ (· + ·) (congrArg₂ (· + ·)
    (Finset.sum_congr rfl fun k _ => congrArg₂ (· * ·) ?_ ?_) (Finset.sum_congr rfl fun k _ => congrArg₂ (· * ·) ?_ ?_)) ?_)) ?_) ?_
  · show V m c main_v0 (((cfg0.win 0).blk t).view.emb (ix3 (0 : Fin 1) p k)) = V m c main_v0 _
    refine congrArg _ (funext fun a => Fin.ext ?_)
    match a with
    | ⟨0, _⟩ => show win0_0.index t (0 : Fin 3) * 1 + 1 * 0 = win0_7.index t (0 : Fin 3) * 1 + 1 * z.val; omega
    | ⟨1, _⟩ => show win0_0.index t (1 : Fin 3) * 32 + 1 * p.val = win0_7.index t (1 : Fin 3) * 32 + 1 * p.val; omega
    | ⟨2, _⟩ => show win0_0.index t (2 : Fin 3) * 256 + 1 * k.val = k.val; omega
  · show V m c main_v3 (((cfg0.win 2).blk t).view.emb (ix2 k h)) = V m c main_v3 _
    refine congrArg _ (funext fun a => Fin.ext ?_)
    match a with
    | ⟨0, _⟩ => show win0_2.index t (0 : Fin 2) * 256 + 1 * k.val = k.val; omega
    | ⟨1, _⟩ => show win0_2.index t (1 : Fin 2) * 256 + 1 * h.val = h.val; omega
  · show V m c main_v0 (((cfg0.win 1).blk t).view.emb (ix3 (0 : Fin 1) q k)) = V m c main_v0 _
    refine congrArg _ (funext fun a => Fin.ext ?_)
    match a with
    | ⟨0, _⟩ => show win0_1.index t (0 : Fin 3) * 1 + 1 * 0 = win0_7.index t (0 : Fin 3) * 1 + 1 * z.val; omega
    | ⟨1, _⟩ => show win0_1.index t (1 : Fin 3) * 256 + 1 * q.val = win0_7.index t (2 : Fin 3) * 256 + 1 * q.val; omega
    | ⟨2, _⟩ => show win0_1.index t (2 : Fin 3) * 256 + 1 * k.val = k.val; omega
  · show V m c main_v4 (((cfg0.win 3).blk t).view.emb (ix2 k h)) = V m c main_v4 _
    refine congrArg _ (funext fun a => Fin.ext ?_)
    match a with
    | ⟨0, _⟩ => show win0_3.index t (0 : Fin 2) * 256 + 1 * k.val = k.val; omega
    | ⟨1, _⟩ => show win0_3.index t (1 : Fin 2) * 256 + 1 * h.val = h.val; omega
  · show V m c main_v5 (((cfg0.win 4).blk t).view.emb (ix2 (0 : Fin 1) h)) = V m c main_v5 _
    refine congrArg _ (funext fun a => Fin.ext ?_)
    match a with
    | ⟨0, _⟩ => show win0_4.index t (0 : Fin 2) * 1 + 1 * 0 = 0; omega
    | ⟨1, _⟩ => show win0_4.index t (1 : Fin 2) * 256 + 1 * h.val = h.val; omega
  · show V m c main_arg4 (((cfg0.win 5).blk t).view.emb (ix2 (0 : Fin 1) h)) = V m c main_arg4 _
    refine congrArg _ (funext fun a => Fin.ext ?_)
    match a with
    | ⟨0, _⟩ => show win0_5.index t (0 : Fin 2) * 1 + 1 * 0 = 0; omega
    | ⟨1, _⟩ => show win0_5.index t (1 : Fin 2) * 256 + 1 * h.val = h.val; omega
  · show V m c main_v6 (((cfg0.win 6).blk t).view.emb (ix2 (0 : Fin 1) (0 : Fin 1))) = V m c main_v6 _
    refine congrArg _ (funext fun a => Fin.ext ?_)
    match a with
    | ⟨0, _⟩ => show win0_6.index t (0 : Fin 2) * 1 + 1 * 0 = 0; omega
    | ⟨1, _⟩ => show win0_6.index t (1 : Fin 2) * 1 + 1 * 0 = 0; omega

/-- An index of the array is in point `t`'s block iff each coordinate is in the block's range on its axis. -/
theorem mem_blk (t : Fin cfg0.N) (i : S8x256x256.Idx) :
    i ∈ ((cfg0.win 7).blk t).view.set ↔ ∀ a : Fin 3, win0_7.index t a * S1x32x256.size a ≤ (i a).val ∧ (i a).val < win0_7.index t a * S1x32x256.size a + S1x32x256.size a := by
  show i ∈ ((View.whole main_v7).slice (win0_7.rect t)).set ↔ _
  rw [View.set_slice_whole, Rect.mem_set_unit]
  exact Iff.rfl

/-- Every index of the array is in some point's block: row `r` of batch `b` is in the tile of point `(b, r / 32)`. -/
theorem covered (i : S8x256x256.Idx) : ∃ t : Fin cfg0.N, (cfg0.win 7).flush t = true ∧ i ∈ ((cfg0.win 7).blk t).view.set := by
  have hi0 : (i 0).val < 8 := (i 0).isLt
  have hi1 : (i 1).val < 256 := (i 1).isLt
  have hi2 : (i 2).val < 256 := (i 2).isLt
  obtain ⟨t, ht⟩ := idx_onto ⟨(i 0).val, by omega⟩ ⟨(i 1).val / 32, by omega⟩
  have q0 : win0_7.index t (0 : Fin 3) = (i 0).val := congrFun ht 0
  have q1 : win0_7.index t (1 : Fin 3) = (i 1).val / 32 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 32 ≤ (i 1).val ∧ (i 1).val < win0_7.index t (1 : Fin 3) * 32 + 32; omega
  | ⟨2, _⟩ => show win0_7.index t (2 : Fin 3) * 256 ≤ (i 2).val ∧ (i 2).val < win0_7.index t (2 : Fin 3) * 256 + 256; omega

/-- The result array after the region: the energies of the arrays the region was handed. -/
theorem energies_eq (c : Dev nD) :
    energies m c = energySpec (V m c main_v0) (V m c main_v3) (V m c main_v4) (V m c main_v5) (V m c main_arg4) (V m c main_v6) :=
  (dats m 0 c).arrAt_eq_of_cover 7 _ (fun t _ => flushed_eq m c t) covered

end Cert.KernelIdeal.Hand

end
-- ==== Proof.KiBridge.lean ====
/-
  The bridge to the reference. The kernel's @main returns the softmax lines' value of the energies its region wrote;
  the region's arrays are re-laid arguments (hidden states with the batch axis first, the attention weight's two
  halves transposed, the bias as a row, the score bias as a 1x1 array); so the energies are one explicit function of
  the six arguments. The reference computes the same sums — its contractions run along the rows of each weight half
  where the kernel's run along the columns of the transposed half — and ends with the same softmax lines. No law
  beyond reading both sides at an index is needed: the sums have the same terms in the same order.
-/
import proofs.«117276_j41781441856090_1_alg».proof.Proof.KiFinal
import proofs.«117276_j41781441856090_1_alg».proof.Proof.Gen.ReferenceIdeal.Read
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-! ## The host lines after the region -/

/-- The softmax along the second axis, as the host lines after the region compute it from the energies. -/
def softmaxTail (e : FVec Ideal S8x256x256 .f32) : FVec Ideal S8x256x256 .f32 :=
  Host.divf
    (Host.exp (subf e (broadcastInDim S8x256x256 ![0, 1, 2] bcast_S8x1x256_S8x256x256_0_1_2 (broadcastInDim S8x1x256 ![0, 2] bcast_S8x256_S8x1x256_0_2
      (maximumf (broadcastInDim S8x256 ![] bcast_S_S8x256 (constant (F := Ideal) S_ .f32 0xFF800000#32))
        (Host.reduce FloatOps.maximumf e (constant (F := Ideal) S_ .f32 0xFF800000#32) reducesTo_S8x256x256_S8x256_d1 h_S_))))))
    (broadcastInDim S8x256x256 ![0, 1, 2] bcast_S8x1x256_S8x256x256_0_1_2 (broadcastInDim S8x1x256 ![0, 2] bcast_S8x256_S8x1x256_0_2
      (Host.reduceAdd (Host.exp (subf e (broadcastInDim S8x256x256 ![0, 1, 2] bcast_S8x1x256_S8x256x256_0_1_2 (broadcastInDim S8x1x256 ![0, 2] bcast_S8x256_S8x1x256_0_2
        (maximumf (broadcastInDim S8x256 ![] bcast_S_S8x256 (constant (F := Ideal) S_ .f32 0xFF800000#32))
          (Host.reduce FloatOps.maximumf e (constant (F := Ideal) S_ .f32 0xFF800000#32) reducesTo_S8x256x256_S8x256_d1 h_S_))))))
        (constant (F := Ideal) S_ .f32 0x00000000#32) reducesTo_S8x256x256_S8x256_d1 h_S_)))

/-- What @main returns: the softmax lines' value of the energies the region wrote. -/
theorem V₃_v18 (c : Dev nD) : (V₃ m c (Proc.devRef .tc main_v18) : S8x256x256.Idx → EReal) = softmaxTail (energies m c) := by
  dsimp only [V₃, hostOps1]; after_results
  rw [V₂_v7]; rfl

/-! ## The arrays the region is handed, from the arguments -/

theorem V_v0 (c : Dev nD) : (V m c main_v0 : S8x256x256.Idx → EReal)
    = transpose S8x256x256 [1, 0, 2] (m ((c : Thread nD τ).loc main_arg0)) transposes_S256x8x256_S8x256x256_1_0_2 := by
  dsimp only [V, V₁, hostOps0]; after_results
theorem V_v3 (c : Dev nD) : (V m c main_v3 : S256x256.Idx → EReal)
    = transpose S256x256 [1, 0] (extractStridedSlice S256x256 ![0, 0] (m ((c : Thread nD τ).loc main_arg2)) slices_S256x512_S256x256_0_0) transposes_S256x256_S256x256_1_0 := by
  dsimp only [V, V₁, hostOps0]; after_results
theorem V_v4 (c : Dev nD) : (V m c main_v4 : S256x256.Idx → EReal)
    = transpose S256x256 [1, 0] (extractStridedSlice S256x256 ![0, 256] (m ((c : Thread nD τ).loc main_arg2)) slices_S256x512_S256x256_0_256) transposes_S256x256_S256x256_1_0 := by
  dsimp only [V, V₁, hostOps0]; after_results
theorem V_v5 (c : Dev nD) : (V m c main_v5 : S1x256.Idx → EReal) = shapeCast S1x256 (m ((c : Thread nD τ).loc main_arg3)) shapeCasts_S256_S1x256 := by
  dsimp only [V, V₁, hostOps0]; after_results; rfl
theorem V_a4 (c : Dev nD) : (V m c main_arg4 : S1x256.Idx → EReal) = m ((c : Thread nD τ).loc main_arg4) := by
  dsimp only [V, V₁, hostOps0]; after_results
theorem V_v6 (c : Dev nD) : (V m c main_v6 : S1x1.Idx → EReal) = shapeCast S1x1 (m ((c : Thread nD τ).loc main_arg5)) shapeCasts_S1_S1x1 := by
  dsimp only [V, V₁, hostOps0]; after_results; rfl

/-! ## The energies from the arguments -/

/-- The energies from the hidden states `R0` (batch first), the two halves `R1`, `R2` of the attention weight (each
    read along its rows), the bias `x3`, the score row `x4` and the score bias `x5`. -/
def energyFlat (R0 : S8x256x256.Idx → EReal) (R1 R2 : S256x256.Idx → EReal) (x3 : S256.Idx → EReal) (x4 : S1x256.Idx → EReal) (x5 : S1.Idx → EReal)
    (i : S8x256x256.Idx) : EReal :=
  (∑ h : Fin 256, Ideal.tanh ((∑ k : Fin 256, R0 (ix3 (⟨(i 0).val, (i 0).isLt⟩ : Fin 8) (⟨(i 1).val, (i 1).isLt⟩ : Fin 256) k) * R1 (ix2 h k))
      + (∑ k : Fin 256, R0 (ix3 (⟨(i 0).val, (i 0).isLt⟩ : Fin 8) (⟨(i 2).val, (i 2).isLt⟩ : Fin 256) k) * R2 (ix2 h k))
      + x3 (ix1 h)) * x4 (ix2 (0 : Fin 1) h))
    + x5 (ix1 (0 : Fin 1))

/-- The kernel's arrays are re-laid arguments: a transposed weight half read at `(k, h)` is the half at `(h, k)`, the
    bias row at `(0, h)` the bias at `h`, the 1x1 score bias the score bias. -/
theorem energySpec_eq_flat (R0 : S8x256x256.Idx → EReal) (R1 R2 : S256x256.Idx → EReal) (x3 : S256.Idx → EReal) (x4 : S1x256.Idx → EReal) (x5 : S1.Idx → EReal)
    (i : S8x256x256.Idx) :
    energySpec R0 (transpose S256x256 [1, 0] R1 transposes_S256x256_S256x256_1_0) (transpose S256x256 [1, 0] R2 transposes_S256x256_S256x256_1_0)
        (shapeCast S1x256 x3 shapeCasts_S256_S1x256) x4 (shapeCast S1x1 x5 shapeCasts_S1_S1x1) i
      = energyFlat R0 R1 R2 x3 x4 x5 i := by
  unfold energySpec energyFlat
  refine congrArg₂ (· + ·) (Finset.sum_congr rfl fun h _ => congrArg₂ (· * ·) (congrArg Ideal.tanh (congrArg₂ (· + ·) (congrArg₂ (· + ·)
    (Finset.sum_congr rfl fun k _ => congrArg₂ (· * ·) rfl ?_) (Finset.sum_congr rfl fun k _ => congrArg₂ (· * ·) rfl ?_)) ?_)) rfl) ?_
  · exact transpose_ix2_apply R1 transposes_S256x256_S256x256_1_0 k h
  · exact transpose_ix2_apply R2 transposes_S256x256_S256x256_1_0 k h
  · exact shapeCast_a_1a_apply x3 shapeCasts_S256_S1x256 (0 : Fin 1) h
  · exact shapeCast_a_1a_apply x5 shapeCasts_S1_S1x1 (0 : Fin 1) (0 : Fin 1)

/-- A coordinate of a composed index: by unfolding the index maps, then arithmetic. -/
local macro "coord" : tactic => `(tactic| first | rfl | omega | (dsimp only; omega))

/-- The reference's energies, before its softmax lines, entry by entry: its two `dot_general`s contract the hidden
    states with each weight half along the half's rows, its broadcasts put row `i 1` and row `i 2` of batch `i 0` side by
    side, and its last `dot_general` sums the products with the score row. -/
theorem ref_energy (x0 : (⟨Cert.ReferenceIdeal.S256x8x256, .f32⟩ : BufTy).Contents (Elt Ideal)) (x2 : (⟨Cert.ReferenceIdeal.S256x512, .f32⟩ : BufTy).Contents (Elt Ideal))
    (x3 : (⟨Cert.ReferenceIdeal.S256, .f32⟩ : BufTy).Contents (Elt Ideal)) (x4 : (⟨Cert.ReferenceIdeal.S1x256, .f32⟩ : BufTy).Contents (Elt Ideal))
    (x5 : (⟨Cert.ReferenceIdeal.S1, .f32⟩ : BufTy).Contents (Elt Ideal)) (i : S8x256x256.Idx) :
    Cert.ReferenceIdeal.Read.val_main_v18 (F := Ideal) x0 x2 x3 x4 x5 i
      = energyFlat (Cert.ReferenceIdeal.Read.val_main_v0 (F := Ideal) x0) (Cert.ReferenceIdeal.Read.val_main_v1 (F := Ideal) x2)
          (Cert.ReferenceIdeal.Read.val_main_v2 (F := Ideal) x2) x3 x4 x5 i := by
  have h0 : (i 0).val < 8 := (i 0).isLt
  have h1 : (i 1).val < 256 := (i 1).isLt
  have h2 : (i 2).val < 256 := (i 2).isLt
  rw [Cert.ReferenceIdeal.Read.val_main_v18_apply, Cert.ReferenceIdeal.Read.val_main_v15_apply, Cert.ReferenceIdeal.Read.val_main_v14_apply,
    Cert.ReferenceIdeal.Read.val_main_v17_apply]
  simp only [Cert.ReferenceIdeal.Read.val_main_v13_apply, Cert.ReferenceIdeal.Read.val_main_v12_apply, Cert.ReferenceIdeal.Read.val_main_v9_apply,
    Cert.ReferenceIdeal.Read.val_main_v7_apply, Cert.ReferenceIdeal.Read.val_main_v5_apply, Cert.ReferenceIdeal.Read.val_main_v3_apply,
    Cert.ReferenceIdeal.Read.val_main_v8_apply, Cert.ReferenceIdeal.Read.val_main_v6_apply, Cert.ReferenceIdeal.Read.val_main_v4_apply,
    Cert.ReferenceIdeal.Read.val_main_v11_apply, Cert.ReferenceIdeal.Read.val_main_v10_apply, Ideal.addf_def, Ideal.hostUnary_tanh_def]
  unfold energyFlat
  refine congrArg₂ (· + ·) (Finset.sum_congr rfl fun h _ => congrArg₂ (· * ·) (congrArg Ideal.tanh (congrArg₂ (· + ·) (congrArg₂ (· + ·)
    (Finset.sum_congr rfl fun k _ => congrArg₂ (· * ·) (congrArg _ (funext fun a => Fin.ext ?_)) (congrArg _ (funext fun a => Fin.ext ?_)))
    (Finset.sum_congr rfl fun k _ => congrArg₂ (· * ·) (congrArg _ (funext fun a => Fin.ext ?_)) (congrArg _ (funext fun a => Fin.ext ?_))))
    (congrArg _ (funext fun a => Fin.ext ?_)))) (congrArg _ (funext fun a => Fin.ext ?_))) ?_
  · match a with
    | ⟨0, _⟩ => coord
    | ⟨1, _⟩ => coord
    | ⟨2, _⟩ => coord
  · match a with
    | ⟨0, _⟩ => coord
    | ⟨1, _⟩ => coord
  · match a with
    | ⟨0, _⟩ => coord
    | ⟨1, _⟩ => coord
    | ⟨2, _⟩ => coord
  · match a with
    | ⟨0, _⟩ => coord
    | ⟨1, _⟩ => coord
  · match a with
    | ⟨0, _⟩ => coord
  · match a with
    | ⟨0, _⟩ => coord
    | ⟨1, _⟩ => coord
  · unfold Cert.ReferenceIdeal.Read.val_main_v16
    refine shapeCast_apply x5 _ _ (ix1 (0 : Fin 1)) ?_
    have hn : (Cert.ReferenceIdeal.S_).numel = 1 := by first | rfl | decide
    rw [Shape.rowMajor_val_one]
    exact (Nat.lt_one_iff.mp (lt_of_lt_of_eq ((Cert.ReferenceIdeal.S_).rowMajor (Cert.ReferenceIdeal.Read.idx_main_v17 i)).isLt hn)).symm

/-! ## The two results are one -/

/-- What the kernel's @main returns is the reference's last stage of the same arguments: the energies agree entry by
    entry, and both programs end with the same softmax lines. -/
theorem result_eq (c : Dev nD) :
    (V₃ m c (Proc.devRef .tc main_v18) : S8x256x256.Idx → EReal)
      = Cert.ReferenceIdeal.Read.val_main_v29 (F := Ideal) (m ((c : Thread nD τ).loc main_arg0)) (m ((c : Thread nD τ).loc main_arg2))
          (m ((c : Thread nD τ).loc main_arg3)) (m ((c : Thread nD τ).loc main_arg4)) (m ((c : Thread nD τ).loc main_arg5)) := by
  rw [V₃_v18, energies_eq, V_v0, V_v3, V_v4, V_v5, V_a4, V_v6]
  have he : energySpec (transpose S8x256x256 [1, 0, 2] (m ((c : Thread nD τ).loc main_arg0)) transposes_S256x8x256_S8x256x256_1_0_2)
        (transpose S256x256 [1, 0] (extractStridedSlice S256x256 ![0, 0] (m ((c : Thread nD τ).loc main_arg2)) slices_S256x512_S256x256_0_0) transposes_S256x256_S256x256_1_0)
        (transpose S256x256 [1, 0] (extractStridedSlice S256x256 ![0, 256] (m ((c : Thread nD τ).loc main_arg2)) slices_S256x512_S256x256_0_256) transposes_S256x256_S256x256_1_0)
        (shapeCast S1x256 (m ((c : Thread nD τ).loc main_arg3)) shapeCasts_S256_S1x256) (m ((c : Thread nD τ).loc main_arg4))
        (shapeCast S1x1 (m ((c : Thread nD τ).loc main_arg5)) shapeCasts_S1_S1x1)
      = Cert.ReferenceIdeal.Read.val_main_v18 (F := Ideal) (m ((c : Thread nD τ).loc main_arg0)) (m ((c : Thread nD τ).loc main_arg2))
          (m ((c : Thread nD τ).loc main_arg3)) (m ((c : Thread nD τ).loc main_arg4)) (m ((c : Thread nD τ).loc main_arg5)) :=
    funext fun i => (energySpec_eq_flat _ _ _ _ _ _ i).trans
      (ref_energy (m ((c : Thread nD τ).loc main_arg0)) (m ((c : Thread nD τ).loc main_arg2)) (m ((c : Thread nD τ).loc main_arg3))
        (m ((c : Thread nD τ).loc main_arg4)) (m ((c : Thread nD τ).loc main_arg5)) i).symm
  refine (congrArg softmaxTail he).trans ?_
  rfl

end Cert.KernelIdeal.Hand

end
-- ==== Proof.lean ====
/-
  The certificate of the pairwise attention-energies kernel against its jnp reference.

  Both programs compute, for batch `b`, row `i` and column `j`,

      e[b, i, j] = Σ_h tanh( Σ_k H[b,i,k]·W[h,k] + Σ_k H[b,j,k]·W[h,256+k] + bias[h] ) · score[h] + score_bias

  from the hidden states `H` (given with the sequence axis first), the attention weight `W`, the bias, the score row
  and the score bias, and then a softmax along the second axis. The kernel tiles `i` into blocks of 32 rows over a
  grid of 8 batches by 8 tiles, reads the hidden states through two windows (the tile, and the batch's whole 256 rows),
  computes the two projections on the matrix unit in a narrower format and sums the last axis on the vector unit; the
  reference uses three `dot_general`s and broadcasts. On the extended reals a change of format is the identity and a
  matrix product is its sum, so both sides are the same sums of the same terms; no precondition is used.

  The three frames come from the two runs of the kernel's @main (at the word level and on the extended reals: the same
  text, read twice) and from the reference's run; nothing was rewritten by the ideal pass, so `preserves` holds
  trivially; `algebraic` puts the two runs side by side.
-/
import proofs.«117276_j41781441856090_1_alg».proof.Defs
import proofs.«117276_j41781441856090_1_alg».proof.Proof.Gen.Kernel
import proofs.«117276_j41781441856090_1_alg».proof.Proof.Gen.KernelIdeal
import proofs.«117276_j41781441856090_1_alg».proof.Proof.Gen.ReferenceIdeal
import proofs.«117276_j41781441856090_1_alg».proof.Proof.Gen.Pre_finite_inputs
import proofs.«117276_j41781441856090_1_alg».proof.Proof.Gen.ReferenceIdeal.Run
import proofs.«117276_j41781441856090_1_alg».proof.Proof.Gen.ReferenceIdeal.Read
import proofs.«117276_j41781441856090_1_alg».proof.Proof.KnRun
import proofs.«117276_j41781441856090_1_alg».proof.Proof.KiBridge
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Hand.run_main (F := Bits) m ρ)

/-- So does the kernel read on the extended reals, -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Hand.run_main (F := Ideal) m ρ)

/-- and the reference. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both programs end with the same result array: the kernel's at the softmax
    lines' value of its energies, the reference's at its last stage, which is that value of the same arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.V₃ m c (Proc.devRef .tc Cert.KernelIdeal.main_v18),
    (θ_run Cert.KernelIdeal.defs _ _).mono (fun _ h c => h c) (Cert.KernelIdeal.Hand.run_main (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2.2.1, (hagree c).2.2.2.1, (hagree c).2.2.2.2.1, (hagree c).2.2.2.2.2]
  exact (Cert.KernelIdeal.Hand.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
